-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x2 : Shape := ⟨2, ![65536, 2]⟩
abbrev S2x1024 : Shape := ⟨2, ![2, 1024]⟩
abbrev S1x1024 : Shape := ⟨2, ![1, 1024]⟩
abbrev S1024x1024 : Shape := ⟨2, ![1024, 1024]⟩
abbrev S1024x1 : Shape := ⟨2, ![1024, 1]⟩
abbrev S1x1 : Shape := ⟨2, ![1, 1]⟩
abbrev S_ : Shape := ⟨0, ![]⟩

class Facts : Prop where
  bcast_S_S65536x2 : S_.BroadcastsInDim S65536x2 (![] : Fin 0 → Fin S65536x2.rank)
  reducesTo_S65536x2_S_d0_1 : S65536x2.ReducesTo [0, 1] S_
  h_S_ : 0 < S_.numel
  bcast_S_S2x1024 : S_.BroadcastsInDim S2x1024 (![] : Fin 0 → Fin S2x1024.rank)
  reducesTo_S2x1024_S_d0_1 : S2x1024.ReducesTo [0, 1] S_
  bcast_S_S1x1024 : S_.BroadcastsInDim S1x1024 (![] : Fin 0 → Fin S1x1024.rank)
  reducesTo_S1x1024_S_d0_1 : S1x1024.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1024x1 : S_.BroadcastsInDim S1024x1 (![] : Fin 0 → Fin S1024x1.rank)
  reducesTo_S1024x1_S_d0_1 : S1024x1.ReducesTo [0, 1] S_
  bcast_S_S1x1 : S_.BroadcastsInDim S1x1 (![] : Fin 0 → Fin S1x1.rank)
  reducesTo_S1x1_S_d0_1 : S1x1.ReducesTo [0, 1] S_

variable [Facts]

def fn_part3 {F : FTy → Type} [FloatOps F] (main_v48 : IVec S_ 1) (main_v49 : FVec F S1x1 .f32) (main_v50 : FVec F S1x1 .f32) : IVec S_ 1 :=
  let main_v51 : IVec S1x1 1 := cmpf .olt main_v49 main_v50
  let main_c_19 : IVec S_ 1 := constantI S_ 1 1#1
  let main_v52 : IVec S_ 1 := (fun x v => Host.reduce IntOp.andi x v reducesTo_S1x1_S_d0_1 h_S_) main_v51 main_c_19
  let main_v53 : IVec S_ 1 := andi main_v48 main_v52
  main_v53

def fn_part2 {F : FTy → Type} [FloatOps F] (main_arg7 : FVec F S1024x1024 .f32) (main_arg8 : FVec F S1x1024 .f32) (main_arg9 : FVec F S1024x1 .f32) (main_arg10 : FVec F S1x1 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1x1024 .f32 := Host.absf main_arg8
  let main_cst_14 : FVec F S_ .f32 := constant S_ .f32 0x7F800000#32
  let main_v40 : FVec F S1x1024 .f32 := broadcastInDim S1x1024 ![] bcast_S_S1x1024 main_cst_14
  let main_v41 : IVec S1x1024 1 := cmpf .olt main_v39 main_v40
  let main_c_15 : IVec S_ 1 := constantI S_ 1 1#1
  let main_v42 : IVec S_ 1 := (fun x v => Host.reduce IntOp.andi x v reducesTo_S1x1024_S_d0_1 h_S_) main_v41 main_c_15
  let main_v43 : IVec S_ 1 := andi main_v38 main_v42
  let main_v44 : FVec F S1024x1 .f32 := Host.absf main_arg9
  let main_cst_16 : FVec F S_ .f32 := constant S_ .f32 0x7F800000#32
  let main_v45 : FVec F S1024x1 .f32 := broadcastInDim S1024x1 ![] bcast_S_S1024x1 main_cst_16
  let main_v46 : IVec S1024x1 1 := cmpf .olt main_v44 main_v45
  let main_c_17 : IVec S_ 1 := constantI S_ 1 1#1
  let main_v47 : IVec S_ 1 := (fun x v => Host.reduce IntOp.andi x v reducesTo_S1024x1_S_d0_1 h_S_) main_v46 main_c_17
  let main_v48 : IVec S_ 1 := andi main_v43 main_v47
  let main_v49 : FVec F S1x1 .f32 := Host.absf main_arg10
  let main_cst_18 : FVec F S_ .f32 := constant S_ .f32 0x7F800000#32
  let main_v50 : FVec F S1x1 .f32 := broadcastInDim S1x1 ![] bcast_S_S1x1 main_cst_18
  fn_part3 (F := F) main_v48 main_v49 main_v50

def fn_part1 {F : FTy → Type} [FloatOps F] (main_arg4 : FVec F S1x1024 .f32) (main_arg5 : FVec F S1024x1024 .f32) (main_arg6 : FVec F S1x1024 .f32) (main_arg7 : FVec F S1024x1024 .f32) (main_arg8 : FVec F S1x1024 .f32) (main_arg9 : FVec F S1024x1 .f32) (main_arg10 : FVec F S1x1 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1x1024 .f32 := Host.absf main_arg4
  let main_cst_6 : FVec F S_ .f32 := constant S_ .f32 0x7F800000#32
  let main_v20 : FVec F S1x1024 .f32 := broadcastInDim S1x1024 ![] bcast_S_S1x1024 main_cst_6
  let main_v21 : IVec S1x1024 1 := cmpf .olt main_v19 main_v20
  let main_c_7 : IVec S_ 1 := constantI S_ 1 1#1
  let main_v22 : IVec S_ 1 := (fun x v => Host.reduce IntOp.andi x v reducesTo_S1x1024_S_d0_1 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1x1024 .f32 := Host.absf main_arg6
  let main_cst_10 : FVec F S_ .f32 := constant S_ .f32 0x7F800000#32
  let main_v30 : FVec F S1x1024 .f32 := broadcastInDim S1x1024 ![] bcast_S_S1x1024 main_cst_10
  let main_v31 : IVec S1x1024 1 := cmpf .olt main_v29 main_v30
  let main_c_11 : IVec S_ 1 := constantI S_ 1 1#1
  let main_v32 : IVec S_ 1 := (fun x v => Host.reduce IntOp.andi x v reducesTo_S1x1024_S_d0_1 h_S_) main_v31 main_c_11
  let main_v33 : IVec S_ 1 := andi main_v28 main_v32
  fn_part2 (F := F) main_arg7 main_arg8 main_arg9 main_arg10 main_v33

def fn {F : FTy → Type} [FloatOps F] (main_arg0 : FVec F S65536x2 .f32) (main_arg1 : FVec F S2x1024 .f32) (main_arg2 : FVec F S1x1024 .f32) (main_arg3 : FVec F S1024x1024 .f32) (main_arg4 : FVec F S1x1024 .f32) (main_arg5 : FVec F S1024x1024 .f32) (main_arg6 : FVec F S1x1024 .f32) (main_arg7 : FVec F S1024x1024 .f32) (main_arg8 : FVec F S1x1024 .f32) (main_arg9 : FVec F S1024x1 .f32) (main_arg10 : FVec F S1x1 .f32) : IVec S_ 1 :=
  let main_v0 : FVec F S65536x2 .f32 := Host.absf main_arg0
  let main_cst : FVec F S_ .f32 := constant S_ .f32 0x7F800000#32
  let main_v1 : FVec F S65536x2 .f32 := broadcastInDim S65536x2 ![] bcast_S_S65536x2 main_cst
  let main_v2 : IVec S65536x2 1 := cmpf .olt main_v0 main_v1
  let main_c : IVec S_ 1 := constantI S_ 1 1#1
  let main_v3 : IVec S_ 1 := (fun x v => Host.reduce IntOp.andi x v reducesTo_S65536x2_S_d0_1 h_S_) main_v2 main_c
  let main_v4 : FVec F S2x1024 .f32 := Host.absf main_arg1
  let main_cst_0 : FVec F S_ .f32 := constant S_ .f32 0x7F800000#32
  let main_v5 : FVec F S2x1024 .f32 := broadcastInDim S2x1024 ![] bcast_S_S2x1024 main_cst_0
  let main_v6 : IVec S2x1024 1 := cmpf .olt main_v4 main_v5
  let main_c_1 : IVec S_ 1 := constantI S_ 1 1#1
  let main_v7 : IVec S_ 1 := (fun x v => Host.reduce IntOp.andi x v reducesTo_S2x1024_S_d0_1 h_S_) main_v6 main_c_1
  let main_v8 : IVec S_ 1 := andi main_v3 main_v7
  let main_v9 : FVec F S1x1024 .f32 := Host.absf main_arg2
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_c_3 : IVec S_ 1 := constantI S_ 1 1#1
  let main_v12 : IVec S_ 1 := (fun x v => Host.reduce IntOp.andi x v reducesTo_S1x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_arg9 main_arg10 main_v13 main_v16
-- ==== Kernel.lean ====
abbrev S65536x2 : Shape := ⟨2, ![65536, 2]⟩
abbrev S2x1024 : Shape := ⟨2, ![2, 1024]⟩
abbrev S1x1024 : Shape := ⟨2, ![1, 1024]⟩
abbrev S1024x1024 : Shape := ⟨2, ![1024, 1024]⟩
abbrev S1024x1 : Shape := ⟨2, ![1024, 1]⟩
abbrev S1x1 : Shape := ⟨2, ![1, 1]⟩
abbrev S2 : Shape := ⟨1, ![2]⟩
abbrev S2x2 : Shape := ⟨2, ![2, 2]⟩
abbrev S_ : Shape := ⟨0, ![]⟩
abbrev S512x512 : Shape := ⟨2, ![512, 512]⟩
abbrev S2x1x2x1 : Shape := ⟨4, ![2, 1, 2, 1]⟩
abbrev S1x512x1x512 : Shape := ⟨4, ![1, 512, 1, 512]⟩
abbrev S2x512x2x512 : Shape := ⟨4, ![2, 512, 2, 512]⟩
abbrev S4x4 : Shape := ⟨2, ![4, 4]⟩
abbrev S256x256 : Shape := ⟨2, ![256, 256]⟩
abbrev S4x1x4x1 : Shape := ⟨4, ![4, 1, 4, 1]⟩
abbrev S1x256x1x256 : Shape := ⟨4, ![1, 256, 1, 256]⟩
abbrev S4x256x4x256 : Shape := ⟨4, ![4, 256, 4, 256]⟩
abbrev S1x2 : Shape := ⟨2, ![1, 2]⟩
abbrev S65536x1 : Shape := ⟨2, ![65536, 1]⟩
abbrev S2048x2 : Shape := ⟨2, ![2048, 2]⟩
abbrev S2048x1 : Shape := ⟨2, ![2048, 1]⟩
abbrev S2048x1024 : Shape := ⟨2, ![2048, 1024]⟩

abbrev nBuf : Space → Nat
  | .hbm => 64
  | .vmem => 14
  | .smem => 0
  | _ => 0

abbrev bufTy : (tb : Table) → Fin (tcTables nBuf tb) → BufTy
  | .hbm, ⟨0, _⟩ => ⟨S65536x2, .f32⟩
  | .hbm, ⟨1, _⟩ => ⟨S2x1024, .f32⟩
  | .hbm, ⟨2, _⟩ => ⟨S1x1024, .f32⟩
  | .hbm, ⟨3, _⟩ => ⟨S1024x1024, .f32⟩
  | .hbm, ⟨4, _⟩ => ⟨S1x1024, .f32⟩
  | .hbm, ⟨5, _⟩ => ⟨S1024x1024, .f32⟩
  | .hbm, ⟨6, _⟩ => ⟨S1x1024, .f32⟩
  | .hbm, ⟨7, _⟩ => ⟨S1024x1024, .f32⟩
  | .hbm, ⟨8, _⟩ => ⟨S1x1024, .f32⟩
  | .hbm, ⟨9, _⟩ => ⟨S1024x1, .f32⟩
  | .hbm, ⟨10, _⟩ => ⟨S1x1, .f32⟩
  | .hbm, ⟨11, _⟩ => ⟨S2, .f32⟩
  | .hbm, ⟨12, _⟩ => ⟨S2, .f32⟩
  | .hbm, ⟨13, _⟩ => ⟨S2x2, .i32⟩
  | .hbm, ⟨14, _⟩ => ⟨S2x2, .i32⟩
  | .hbm, ⟨15, _⟩ => ⟨S_, .i32⟩
  | .hbm, ⟨16, _⟩ => ⟨S2x2, .i32⟩
  | .hbm, ⟨17, _⟩ => ⟨S2x2, .i32⟩
  | .hbm, ⟨18, _⟩ => ⟨S2x2, .i1⟩
  | .hbm, ⟨19, _⟩ => ⟨S2x2, .f32⟩
  | .hbm, ⟨20, _⟩ => ⟨S_, .f32⟩
  | .hbm, ⟨21, _⟩ => ⟨S512x512, .f32⟩
  | .hbm, ⟨22, _⟩ => ⟨S2x1x2x1, .f32⟩
  | .hbm, ⟨23, _⟩ => ⟨S1x512x1x512, .f32⟩
  | .hbm, ⟨24, _⟩ => ⟨S2x512x2x512, .f32⟩
  | .hbm, ⟨25, _⟩ => ⟨S2x512x2x512, .f32⟩
  | .hbm, ⟨26, _⟩ => ⟨S2x512x2x512, .f32⟩
  | .hbm, ⟨27, _⟩ => ⟨S1024x1024, .f32⟩
  | .hbm, ⟨28, _⟩ => ⟨S4x4, .i32⟩
  | .hbm, ⟨29, _⟩ => ⟨S4x4, .i32⟩
  | .hbm, ⟨30, _⟩ => ⟨S_, .i32⟩
  | .hbm, ⟨31, _⟩ => ⟨S4x4, .i32⟩
  | .hbm, ⟨32, _⟩ => ⟨S4x4, .i32⟩
  | .hbm, ⟨33, _⟩ => ⟨S4x4, .i1⟩
  | .hbm, ⟨34, _⟩ => ⟨S4x4, .f32⟩
  | .hbm, ⟨35, _⟩ => ⟨S_, .f32⟩
  | .hbm, ⟨36, _⟩ => ⟨S256x256, .f32⟩
  | .hbm, ⟨37, _⟩ => ⟨S4x1x4x1, .f32⟩
  | .hbm, ⟨38, _⟩ => ⟨S1x256x1x256, .f32⟩
  | .hbm, ⟨39, _⟩ => ⟨S4x256x4x256, .f32⟩
  | .hbm, ⟨40, _⟩ => ⟨S4x256x4x256, .f32⟩
  | .hbm, ⟨41, _⟩ => ⟨S4x256x4x256, .f32⟩
  | .hbm, ⟨42, _⟩ => ⟨S1024x1024, .f32⟩
  | .hbm, ⟨43, _⟩ => ⟨S1x2, .f32⟩
  | .hbm, ⟨44, _⟩ => ⟨S65536x2, .f32⟩
  | .hbm, ⟨45, _⟩ => ⟨S65536x2, .f32⟩
  | .hbm, ⟨46, _⟩ => ⟨S_, .f32⟩
  | .hbm, ⟨47, _⟩ => ⟨S65536x2, .f32⟩
  | .hbm, ⟨48, _⟩ => ⟨S65536x2, .f32⟩
  | .hbm, ⟨49, _⟩ => ⟨S2, .f32⟩
  | .hbm, ⟨50, _⟩ => ⟨S1x2, .f32⟩
  | .hbm, ⟨51, _⟩ => ⟨S65536x2, .f32⟩
  | .hbm, ⟨52, _⟩ => ⟨S65536x2, .f32⟩
  | .hbm, ⟨53, _⟩ => ⟨S_, .f32⟩
  | .hbm, ⟨54, _⟩ => ⟨S65536x2, .f32⟩
  | .hbm, ⟨55, _⟩ => ⟨S65536x2, .f32⟩
  | .hbm, ⟨56, _⟩ => ⟨S2x1024, .bf16⟩
  | .hbm, ⟨57, _⟩ => ⟨S1024x1024, .bf16⟩
  | .hbm, ⟨58, _⟩ => ⟨S1024x1024, .f32⟩
  | .hbm, ⟨59, _⟩ => ⟨S1024x1024, .bf16⟩
  | .hbm, ⟨60, _⟩ => ⟨S1024x1024, .f32⟩
  | .hbm, ⟨61, _⟩ => ⟨S1024x1024, .bf16⟩
  | .hbm, ⟨62, _⟩ => ⟨S1024x1, .bf16⟩
  | .hbm, ⟨63, _⟩ => ⟨S65536x1, .f32⟩
  | .local _ .vmem, ⟨0, _⟩ => ⟨S2048x2, .f32⟩
  | .local _ .vmem, ⟨1, _⟩ => ⟨S2048x2, .f32⟩
  | .local _ .vmem, ⟨2, _⟩ => ⟨S2x1024, .bf16⟩
  | .local _ .vmem, ⟨3, _⟩ => ⟨S1x1024, .f32⟩
  | .local _ .vmem, ⟨4, _⟩ => ⟨S1024x1024, .bf16⟩
  | .local _ .vmem, ⟨5, _⟩ => ⟨S1x1024, .f32⟩
  | .local _ .vmem, ⟨6, _⟩ => ⟨S1024x1024, .bf16⟩
  | .local _ .vmem, ⟨7, _⟩ => ⟨S1x1024, .f32⟩
  | .local _ .vmem, ⟨8, _⟩ => ⟨S1024x1024, .bf16⟩
  | .local _ .vmem, ⟨9, _⟩ => ⟨S1x1024, .f32⟩
  | .local _ .vmem, ⟨10, _⟩ => ⟨S1024x1, .bf16⟩
  | .local _ .vmem, ⟨11, _⟩ => ⟨S1x1, .f32⟩
  | .local _ .vmem, ⟨12, _⟩ => ⟨S2048x1, .f32⟩
  | .local _ .vmem, ⟨13, _⟩ => ⟨S2048x1, .f32⟩
  | _, _ => ⟨S65536x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_cst_0 : Ref sig .tc := ⟨.hbm, 12, rfl⟩
abbrev main_v0 : Ref sig .tc := ⟨.hbm, 13, rfl⟩
abbrev main_v1 : Ref sig .tc := ⟨.hbm, 14, rfl⟩
abbrev main_c : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_cst_1 : Ref sig .tc := ⟨.hbm, 20, rfl⟩
abbrev main_v6 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_c_2 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_cst_3 : Ref sig .tc := ⟨.hbm, 35, rfl⟩
abbrev main_v14 : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_call1_v3 : Ref sig .tc := ⟨.hbm, 40, rfl⟩
abbrev main_call1_v4 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_cst_4 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_cst_5 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S2048x1 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  bcast_S_S2x2 : S_.BroadcastsInDim S2x2 (![] : Fin 0 → Fin S2x2.rank)
  bcast_S_S512x512 : S_.BroadcastsInDim S512x512 (![] : Fin 0 → Fin S512x512.rank)
  bcast_S2x2_S2x1x2x1_0_2 : S2x2.BroadcastsInDim S2x1x2x1 (![0, 2] : Fin 2 → Fin S2x1x2x1.rank)
  bcast_S512x512_S1x512x1x512_1_3 : S512x512.BroadcastsInDim S1x512x1x512 (![1, 3] : Fin 2 → Fin S1x512x1x512.rank)
  bcast_S2x1x2x1_S2x512x2x512_0_1_2_3 : S2x1x2x1.BroadcastsInDim S2x512x2x512 (![0, 1, 2, 3] : Fin 4 → Fin S2x512x2x512.rank)
  bcast_S1x512x1x512_S2x512x2x512_0_1_2_3 : S1x512x1x512.BroadcastsInDim S2x512x2x512 (![0, 1, 2, 3] : Fin 4 → Fin S2x512x2x512.rank)
  shapeCasts_S2x512x2x512_S1024x1024 : S2x512x2x512.ShapeCasts S1024x1024
  bcast_S_S4x4 : S_.BroadcastsInDim S4x4 (![] : Fin 0 → Fin S4x4.rank)
  bcast_S_S256x256 : S_.BroadcastsInDim S256x256 (![] : Fin 0 → Fin S256x256.rank)
  bcast_S4x4_S4x1x4x1_0_2 : S4x4.BroadcastsInDim S4x1x4x1 (![0, 2] : Fin 2 → Fin S4x1x4x1.rank)
  bcast_S256x256_S1x256x1x256_1_3 : S256x256.BroadcastsInDim S1x256x1x256 (![1, 3] : Fin 2 → Fin S1x256x1x256.rank)
  bcast_S4x1x4x1_S4x256x4x256_0_1_2_3 : S4x1x4x1.BroadcastsInDim S4x256x4x256 (![0, 1, 2, 3] : Fin 4 → Fin S4x256x4x256.rank)
  bcast_S1x256x1x256_S4x256x4x256_0_1_2_3 : S1x256x1x256.BroadcastsInDim S4x256x4x256 (![0, 1, 2, 3] : Fin 4 → Fin S4x256x4x256.rank)
  shapeCasts_S4x256x4x256_S1024x1024 : S4x256x4x256.ShapeCasts S1024x1024
  bcast_S2_S1x2_1 : S2.BroadcastsInDim S1x2 (![1] : Fin 1 → Fin S1x2.rank)
  bcast_S1x2_S65536x2_0_1 : S1x2.BroadcastsInDim S65536x2 (![0, 1] : Fin 2 → Fin S65536x2.rank)
  bcast_S_S65536x2 : S_.BroadcastsInDim S65536x2 (![] : Fin 0 → Fin S65536x2.rank)
  bitsLt_bf16_f32 : FTy.bits .bf16 < FTy.bits .f32
  inb_S2048x2_S2048x2_0_0 : ∀ a, (![0, 0] : Fin 2 → Nat) a + S2048x2.size a ≤ S2048x2.size a
  h_S2048x2 : 0 < S2048x2.numel
  shapeCasts_S2048x2_S2048x2 : S2048x2.ShapeCasts S2048x2
  inb_S2x1024_S2x1024_0_0 : ∀ a, (![0, 0] : Fin 2 → Nat) a + S2x1024.size a ≤ S2x1024.size a
  h_S2x1024 : 0 < S2x1024.numel
  shapeCasts_S2x1024_S2x1024 : S2x1024.ShapeCasts S2x1024
  inb_S1x1024_S1x1024_0_0 : ∀ a, (![0, 0] : Fin 2 → Nat) a + S1x1024.size a ≤ S1x1024.size a
  h_S1x1024 : 0 < S1x1024.numel
  broadcasts_S1x1024_S2048x1024 : S1x1024.Broadcasts S2048x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x1_S1x1_0_0 : ∀ a, (![0, 0] : Fin 2 → Nat) a + S1x1.size a ≤ S1x1.size a
  h_S1x1 : 0 < S1x1.numel
  broadcasts_S1x1_S2048x1 : S1x1.Broadcasts S2048x1
  inb_S2048x1_S2048x1_0_0 : ∀ a, (![0, 0] : Fin 2 → Nat) a + S2048x1.size a ≤ S2048x1.size a
  h_S2048x1 : 0 < S2048x1.numel
  dot_S2048x2_S2x1024_S2048x1024_1_0_0_1_n_n_wf : DotDims.WF S2048x2 S2x1024 S2048x1024 [1] [0] [0] [1] [] []
  dot_S2048x1024_S1024x1024_S2048x1024_1_0_0_1_n_n_wf : DotDims.WF S2048x1024 S1024x1024 S2048x1024 [1] [0] [0] [1] [] []
  dot_S2048x1024_S1024x1_S2048x1_1_0_0_1_n_n_wf : DotDims.WF S2048x1024 S1024x1 S2048x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x2.size a ≤ S65536x2.size a
  hwx0_0 : ∀ i : grid0.Coords, EltTy.bits .f32 = 32 ∨ (Rect.block (s := S65536x2) S2048x2.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2x1024.size a ≤ S2x1024.size a
  hwx0_1 : ∀ i : grid0.Coords, EltTy.bits .bf16 = 32 ∨ (Rect.block (s := S2x1024) S2x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S1024x1024.size a
  hwx0_5 : ∀ i : grid0.Coords, EltTy.bits .bf16 = 32 ∨ (Rect.block (s := S1024x1024) S1024x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024x1024.size a ≤ S1024x1024.size a
  hwx0_7 : ∀ i : grid0.Coords, EltTy.bits .bf16 = 32 ∨ (Rect.block (s := S1024x1024) S1024x1024.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1024.size a ≤ S1x1024.size a
  hwx0_8 : ∀ i : grid0.Coords, EltTy.bits .f32 = 32 ∨ (Rect.block (s := S1x1024) S1x1024.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1024x1.size a ≤ S1024x1.size a
  hwx0_9 : ∀ i : grid0.Coords, EltTy.bits .bf16 = 32 ∨ (Rect.block (s := S1024x1) S1024x1.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x1.size a ≤ S1x1.size a
  hwx0_10 : ∀ i : grid0.Coords, EltTy.bits .f32 = 32 ∨ (Rect.block (s := S1x1) S1x1.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S2048x1.size a ≤ S65536x1.size a
  hwx0_11 : ∀ i : grid0.Coords, EltTy.bits .f32 = 32 ∨ (Rect.block (s := S65536x1) S2048x1.size (cc0_transform_11 i) (hinb0_11 i)).WholeWords (EltTy.packing .f32)

variable [Facts₀]

def dot_S2048x2_S2x1024_S2048x1024_1_0_0_1_n_n : DotDims S2048x2 S2x1024 S2048x1024 where
  lhsContracting := [1]
  rhsContracting := [0]
  lhsNonContracting := [0]
  rhsNonContracting := [1]
  lhsBatch := []
  rhsBatch := []
  wf := dot_S2048x2_S2x1024_S2048x1024_1_0_0_1_n_n_wf
def dot_S2048x1024_S1024x1024_S2048x1024_1_0_0_1_n_n : DotDims S2048x1024 S1024x1024 S2048x1024 where
  lhsContracting := [1]
  rhsContracting := [0]
  lhsNonContracting := [0]
  rhsNonContracting := [1]
  lhsBatch := []
  rhsBatch := []
  wf := dot_S2048x1024_S1024x1024_S2048x1024_1_0_0_1_n_n_wf
def dot_S2048x1024_S1024x1_S2048x1_1_0_0_1_n_n : DotDims S2048x1024 S1024x1 S2048x1 where
  lhsContracting := [1]
  rhsContracting := [0]
  lhsNonContracting := [0]
  rhsNonContracting := [1]
  lhsBatch := []
  rhsBatch := []
  wf := dot_S2048x1024_S1024x1_S2048x1_1_0_0_1_n_n_wf

abbrev win0_0 : Pipeline.Window sig grid0 :=
  Pipeline.Window.ofSpec (Memref.whole main_v26) S2048x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v27) S2x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v28) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v30) S1024x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v32) S1024x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S1x1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v33) S1024x1.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S1x1.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v34) S2048x1.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S65536x2 : Shape := ⟨2, ![65536, 2]⟩
abbrev S2x1024 : Shape := ⟨2, ![2, 1024]⟩
abbrev S1x1024 : Shape := ⟨2, ![1, 1024]⟩
abbrev S1024x1024 : Shape := ⟨2, ![1024, 1024]⟩
abbrev S1024x1 : Shape := ⟨2, ![1024, 1]⟩
abbrev S1x1 : Shape := ⟨2, ![1, 1]⟩
abbrev S2 : Shape := ⟨1, ![2]⟩
abbrev S2x2 : Shape := ⟨2, ![2, 2]⟩
abbrev S_ : Shape := ⟨0, ![]⟩
abbrev S512x512 : Shape := ⟨2, ![512, 512]⟩
abbrev S2x1x2x1 : Shape := ⟨4, ![2, 1, 2, 1]⟩
abbrev S1x512x1x512 : Shape := ⟨4, ![1, 512, 1, 512]⟩
abbrev S2x512x2x512 : Shape := ⟨4, ![2, 512, 2, 512]⟩
abbrev S4x4 : Shape := ⟨2, ![4, 4]⟩
abbrev S256x256 : Shape := ⟨2, ![256, 256]⟩
abbrev S4x1x4x1 : Shape := ⟨4, ![4, 1, 4, 1]⟩
abbrev S1x256x1x256 : Shape := ⟨4, ![1, 256, 1, 256]⟩
abbrev S4x256x4x256 : Shape := ⟨4, ![4, 256, 4, 256]⟩
abbrev S1x2 : Shape := ⟨2, ![1, 2]⟩
abbrev S65536x1024 : Shape := ⟨2, ![65536, 1024]⟩
abbrev S65536x1 : Shape := ⟨2, ![65536, 1]⟩

abbrev nBuf : Space → Nat
  | .hbm => 77
  | .vmem => 0
  | .smem => 0
  | _ => 0

abbrev bufTy : (tb : Table) → Fin (tcTables nBuf tb) → BufTy
  | .hbm, ⟨0, _⟩ => ⟨S65536x2, .f32⟩
  | .hbm, ⟨1, _⟩ => ⟨S2x1024, .f32⟩
  | .hbm, ⟨2, _⟩ => ⟨S1x1024, .f32⟩
  | .hbm, ⟨3, _⟩ => ⟨S1024x1024, .f32⟩
  | .hbm, ⟨4, _⟩ => ⟨S1x1024, .f32⟩
  | .hbm, ⟨5, _⟩ => ⟨S1024x1024, .f32⟩
  | .hbm, ⟨6, _⟩ => ⟨S1x1024, .f32⟩
  | .hbm, ⟨7, _⟩ => ⟨S1024x1024, .f32⟩
  | .hbm, ⟨8, _⟩ => ⟨S1x1024, .f32⟩
  | .hbm, ⟨9, _⟩ => ⟨S1024x1, .f32⟩
  | .hbm, ⟨10, _⟩ => ⟨S1x1, .f32⟩
  | .hbm, ⟨11, _⟩ => ⟨S2, .f32⟩
  | .hbm, ⟨12, _⟩ => ⟨S2, .f32⟩
  | .hbm, ⟨13, _⟩ => ⟨S2x2, .i32⟩
  | .hbm, ⟨14, _⟩ => ⟨S2x2, .i32⟩
  | .hbm, ⟨15, _⟩ => ⟨S_, .i32⟩
  | .hbm, ⟨16, _⟩ => ⟨S2x2, .i32⟩
  | .hbm, ⟨17, _⟩ => ⟨S2x2, .i32⟩
  | .hbm, ⟨18, _⟩ => ⟨S2x2, .i1⟩
  | .hbm, ⟨19, _⟩ => ⟨S2x2, .f32⟩
  | .hbm, ⟨20, _⟩ => ⟨S_, .f32⟩
  | .hbm, ⟨21, _⟩ => ⟨S512x512, .f32⟩
  | .hbm, ⟨22, _⟩ => ⟨S2x1x2x1, .f32⟩
  | .hbm, ⟨23, _⟩ => ⟨S1x512x1x512, .f32⟩
  | .hbm, ⟨24, _⟩ => ⟨S2x512x2x512, .f32⟩
  | .hbm, ⟨25, _⟩ => ⟨S2x512x2x512, .f32⟩
  | .hbm, ⟨26, _⟩ => ⟨S2x512x2x512, .f32⟩
  | .hbm, ⟨27, _⟩ => ⟨S1024x1024, .f32⟩
  | .hbm, ⟨28, _⟩ => ⟨S4x4, .i32⟩
  | .hbm, ⟨29, _⟩ => ⟨S4x4, .i32⟩
  | .hbm, ⟨30, _⟩ => ⟨S_, .i32⟩
  | .hbm, ⟨31, _⟩ => ⟨S4x4, .i32⟩
  | .hbm, ⟨32, _⟩ => ⟨S4x4, .i32⟩
  | .hbm, ⟨33, _⟩ => ⟨S4x4, .i1⟩
  | .hbm, ⟨34, _⟩ => ⟨S4x4, .f32⟩
  | .hbm, ⟨35, _⟩ => ⟨S_, .f32⟩
  | .hbm, ⟨36, _⟩ => ⟨S256x256, .f32⟩
  | .hbm, ⟨37, _⟩ => ⟨S4x1x4x1, .f32⟩
  | .hbm, ⟨38, _⟩ => ⟨S1x256x1x256, .f32⟩
  | .hbm, ⟨39, _⟩ => ⟨S4x256x4x256, .f32⟩
  | .hbm, ⟨40, _⟩ => ⟨S4x256x4x256, .f32⟩
  | .hbm, ⟨41, _⟩ => ⟨S4x256x4x256, .f32⟩
  | .hbm, ⟨42, _⟩ => ⟨S1024x1024, .f32⟩
  | .hbm, ⟨43, _⟩ => ⟨S1x2, .f32⟩
  | .hbm, ⟨44, _⟩ => ⟨S65536x2, .f32⟩
  | .hbm, ⟨45, _⟩ => ⟨S65536x2, .f32⟩
  | .hbm, ⟨46, _⟩ => ⟨S_, .f32⟩
  | .hbm, ⟨47, _⟩ => ⟨S65536x2, .f32⟩
  | .hbm, ⟨48, _⟩ => ⟨S65536x2, .f32⟩
  | .hbm, ⟨49, _⟩ => ⟨S2, .f32⟩
  | .hbm, ⟨50, _⟩ => ⟨S1x2, .f32⟩
  | .hbm, ⟨51, _⟩ => ⟨S65536x2, .f32⟩
  | .hbm, ⟨52, _⟩ => ⟨S65536x2, .f32⟩
  | .hbm, ⟨53, _⟩ => ⟨S_, .f32⟩
  | .hbm, ⟨54, _⟩ => ⟨S65536x2, .f32⟩
  | .hbm, ⟨55, _⟩ => ⟨S65536x2, .f32⟩
  | .hbm, ⟨56, _⟩ => ⟨S65536x1024, .f32⟩
  | .hbm, ⟨57, _⟩ => ⟨S65536x1024, .f32⟩
  | .hbm, ⟨58, _⟩ => ⟨S65536x1024, .f32⟩
  | .hbm, ⟨59, _⟩ => ⟨S65536x1024, .f32⟩
  | .hbm, ⟨60, _⟩ => ⟨S65536x1024, .f32⟩
  | .hbm, ⟨61, _⟩ => ⟨S65536x1024, .f32⟩
  | .hbm, ⟨62, _⟩ => ⟨S65536x1024, .f32⟩
  | .hbm, ⟨63, _⟩ => ⟨S65536x1024, .f32⟩
  | .hbm, ⟨64, _⟩ => ⟨S1024x1024, .f32⟩
  | .hbm, ⟨65, _⟩ => ⟨S65536x1024, .f32⟩
  | .hbm, ⟨66, _⟩ => ⟨S65536x1024, .f32⟩
  | .hbm, ⟨67, _⟩ => ⟨S65536x1024, .f32⟩
  | .hbm, ⟨68, _⟩ => ⟨S65536x1024, .f32⟩
  | .hbm, ⟨69, _⟩ => ⟨S1024x1024, .f32⟩
  | .hbm, ⟨70, _⟩ => ⟨S65536x1024, .f32⟩
  | .hbm, ⟨71, _⟩ => ⟨S65536x1024, .f32⟩
  | .hbm, ⟨72, _⟩ => ⟨S65536x1024, .f32⟩
  | .hbm, ⟨73, _⟩ => ⟨S65536x1024, .f32⟩
  | .hbm, ⟨74, _⟩ => ⟨S65536x1, .f32⟩
  | .hbm, ⟨75, _⟩ => ⟨S65536x1, .f32⟩
  | .hbm, ⟨76, _⟩ => ⟨S65536x1, .f32⟩
  | _, _ => ⟨S65536x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_cst_0 : Ref sig .tc := ⟨.hbm, 12, rfl⟩
abbrev main_v0 : Ref sig .tc := ⟨.hbm, 13, rfl⟩
abbrev main_v1 : Ref sig .tc := ⟨.hbm, 14, rfl⟩
abbrev main_c : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_cst_1 : Ref sig .tc := ⟨.hbm, 20, rfl⟩
abbrev main_v6 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_c_2 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_cst_3 : Ref sig .tc := ⟨.hbm, 35, rfl⟩
abbrev main_v14 : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_call1_v3 : Ref sig .tc := ⟨.hbm, 40, rfl⟩
abbrev main_call1_v4 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_cst_4 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_cst_5 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩

abbrev nD : Nat := 1
abbrev τ : Topo := Topo.v7x

variable {F : FTy → Type} [FloatOps F]

class Facts₀ : Prop where
  bcast_S_S2x2 : S_.BroadcastsInDim S2x2 (![] : Fin 0 → Fin S2x2.rank)
  bcast_S_S512x512 : S_.BroadcastsInDim S512x512 (![] : Fin 0 → Fin S512x512.rank)
  bcast_S2x2_S2x1x2x1_0_2 : S2x2.BroadcastsInDim S2x1x2x1 (![0, 2] : Fin 2 → Fin S2x1x2x1.rank)
  bcast_S512x512_S1x512x1x512_1_3 : S512x512.BroadcastsInDim S1x512x1x512 (![1, 3] : Fin 2 → Fin S1x512x1x512.rank)
  bcast_S2x1x2x1_S2x512x2x512_0_1_2_3 : S2x1x2x1.BroadcastsInDim S2x512x2x512 (![0, 1, 2, 3] : Fin 4 → Fin S2x512x2x512.rank)
  bcast_S1x512x1x512_S2x512x2x512_0_1_2_3 : S1x512x1x512.BroadcastsInDim S2x512x2x512 (![0, 1, 2, 3] : Fin 4 → Fin S2x512x2x512.rank)
  shapeCasts_S2x512x2x512_S1024x1024 : S2x512x2x512.ShapeCasts S1024x1024
  bcast_S_S4x4 : S_.BroadcastsInDim S4x4 (![] : Fin 0 → Fin S4x4.rank)
  bcast_S_S256x256 : S_.BroadcastsInDim S256x256 (![] : Fin 0 → Fin S256x256.rank)
  bcast_S4x4_S4x1x4x1_0_2 : S4x4.BroadcastsInDim S4x1x4x1 (![0, 2] : Fin 2 → Fin S4x1x4x1.rank)
  bcast_S256x256_S1x256x1x256_1_3 : S256x256.BroadcastsInDim S1x256x1x256 (![1, 3] : Fin 2 → Fin S1x256x1x256.rank)
  bcast_S4x1x4x1_S4x256x4x256_0_1_2_3 : S4x1x4x1.BroadcastsInDim S4x256x4x256 (![0, 1, 2, 3] : Fin 4 → Fin S4x256x4x256.rank)
  bcast_S1x256x1x256_S4x256x4x256_0_1_2_3 : S1x256x1x256.BroadcastsInDim S4x256x4x256 (![0, 1, 2, 3] : Fin 4 → Fin S4x256x4x256.rank)
  shapeCasts_S4x256x4x256_S1024x1024 : S4x256x4x256.ShapeCasts S1024x1024
  bcast_S2_S1x2_1 : S2.BroadcastsInDim S1x2 (![1] : Fin 1 → Fin S1x2.rank)
  bcast_S1x2_S65536x2_0_1 : S1x2.BroadcastsInDim S65536x2 (![0, 1] : Fin 2 → Fin S65536x2.rank)
  bcast_S_S65536x2 : S_.BroadcastsInDim S65536x2 (![] : Fin 0 → Fin S65536x2.rank)
  bcast_S1x1024_S65536x1024_0_1 : S1x1024.BroadcastsInDim S65536x1024 (![0, 1] : Fin 2 → Fin S65536x1024.rank)
  bcast_S1x1_S65536x1_0_1 : S1x1.BroadcastsInDim S65536x1 (![0, 1] : Fin 2 → Fin S65536x1.rank)
  dot_S65536x2_S2x1024_S65536x1024_1_0_0_1_n_n_wf : DotDims.WF S65536x2 S2x1024 S65536x1024 [1] [0] [0] [1] [] []
  dot_S65536x1024_S1024x1024_S65536x1024_1_0_0_1_n_n_wf : DotDims.WF S65536x1024 S1024x1024 S65536x1024 [1] [0] [0] [1] [] []
  dot_S65536x1024_S1024x1_S65536x1_1_0_0_1_n_n_wf : DotDims.WF S65536x1024 S1024x1 S65536x1 [1] [0] [0] [1] [] []

variable [Facts₀]

def dot_S65536x2_S2x1024_S65536x1024_1_0_0_1_n_n : DotDims S65536x2 S2x1024 S65536x1024 where
  lhsContracting := [1]
  rhsContracting := [0]
  lhsNonContracting := [0]
  rhsNonContracting := [1]
  lhsBatch := []
  rhsBatch := []
  wf := dot_S65536x2_S2x1024_S65536x1024_1_0_0_1_n_n_wf
def dot_S65536x1024_S1024x1024_S65536x1024_1_0_0_1_n_n : DotDims S65536x1024 S1024x1024 S65536x1024 where
  lhsContracting := [1]
  rhsContracting := [0]
  lhsNonContracting := [0]
  rhsNonContracting := [1]
  lhsBatch := []
  rhsBatch := []
  wf := dot_S65536x1024_S1024x1024_S65536x1024_1_0_0_1_n_n_wf
def dot_S65536x1024_S1024x1_S65536x1_1_0_0_1_n_n : DotDims S65536x1024 S1024x1 S65536x1 where
  lhsContracting := [1]
  rhsContracting := [0]
  lhsNonContracting := [0]
  rhsNonContracting := [1]
  lhsBatch := []
  rhsBatch := []
  wf := dot_S65536x1024_S1024x1_S65536x1_1_0_0_1_n_n_wf

class Facts : Prop extends Facts₀ where

variable [Facts]
-- ==== Proof.LibDenseBlock.lean ====
/-
  A weight matrix times a block, read at an index.

  A `tpu.matmul` of a `[K, N]` left operand with an `[N, Q]` right operand, contracting the left's second axis with the
  right's first, into a zero accumulator: over the extended reals entry `(k, q)` of the result is the plain sum
  `Σ n, l (k, n) * r (n, q)`.
-/
import Idealize.ShloMosaic.Lib.ValueIdx
import Idealize.ShloMosaic.PureOps.Ideal.Laws

noncomputable section

namespace Idealize.ShloMosaic.DenseBlock

open Idealize.ShloMosaic Idealize.ShloMosaic.ValueIdx

/-- The dimension numbers of `[K, N] · [N, Q] → [K, Q]`. -/
abbrev mmDims (K N Q : Nat)
    (wf : DotDims.WF ⟨2, ![K, N]⟩ ⟨2, ![N, Q]⟩ ⟨2, ![K, Q]⟩ [1] [0] [0] [1] [] []) :
    DotDims ⟨2, ![K, N]⟩ ⟨2, ![N, Q]⟩ ⟨2, ![K, Q]⟩ where
  lhsContracting := [1]
  rhsContracting := [0]
  lhsNonContracting := [0]
  rhsNonContracting := [1]
  lhsBatch := []
  rhsBatch := []
  wf := wf

section
variable {K N Q : Nat} (wf : DotDims.WF ⟨2, ![K, N]⟩ ⟨2, ![N, Q]⟩ ⟨2, ![K, Q]⟩ [1] [0] [0] [1] [] [])

/-- The left operand's row is the result's row. -/
theorem lhs_row (j : (⟨2, ![K, Q]⟩ : Shape).Idx) (c : (mmDims K N Q wf).contr.Idx) :
    ((mmDims K N Q wf).lhsIdx j c (0 : Fin 2)).val = (j 0).val := by
  unfold DotDims.lhsIdx
  rw [dif_neg (show ¬ (0 : Fin 2) ∈ (mmDims K N Q wf).lhsBatch from List.not_mem_nil),
    dif_pos (show (0 : Fin 2) ∈ (mmDims K N Q wf).lhsNonContracting from List.mem_singleton.mpr rfl)]
  rfl

/-- The left operand's column is the contraction position. -/
theorem lhs_col (j : (⟨2, ![K, Q]⟩ : Shape).Idx) (c : (mmDims K N Q wf).contr.Idx) :
    ((mmDims K N Q wf).lhsIdx j c (1 : Fin 2)).val = (c ⟨0, Nat.one_pos⟩).val :=
  (mmDims K N Q wf).lhsIdx_val_of_single rfl j c

/-- The right operand's row is the contraction position. -/
theorem rhs_row (j : (⟨2, ![K, Q]⟩ : Shape).Idx) (c : (mmDims K N Q wf).contr.Idx) :
    ((mmDims K N Q wf).rhsIdx j c (0 : Fin 2)).val = (c ⟨0, Nat.one_pos⟩).val :=
  (mmDims K N Q wf).rhsIdx_val_of_single rfl j c

/-- The right operand's column is the result's column. -/
theorem rhs_col (j : (⟨2, ![K, Q]⟩ : Shape).Idx) (c : (mmDims K N Q wf).contr.Idx) :
    ((mmDims K N Q wf).rhsIdx j c (1 : Fin 2)).val = (j 1).val := by
  unfold DotDims.rhsIdx
  rw [dif_neg (show ¬ (1 : Fin 2) ∈ (mmDims K N Q wf).rhsBatch from List.not_mem_nil),
    dif_pos (show (1 : Fin 2) ∈ (mmDims K N Q wf).rhsNonContracting from List.mem_singleton.mpr rfl)]
  rfl

/-- Entry `(k, q)` of the product into a zero accumulator is `Σ n, l (k, n) * r (n, q)`. -/
theorem matmul_zero_apply {φ₁ φ₂ : FTy} (l : FVec Ideal ⟨2, ![K, N]⟩ φ₁) (r : FVec Ideal ⟨2, ![N, Q]⟩ φ₂)
    (k : Fin K) (q : Fin Q) :
    FloatOps.matmul (mmDims K N Q wf) none l r (constant ⟨2, ![K, Q]⟩ .f32 0x00000000#32) (ix2 k q)
      = ∑ n : Fin N, l (ix2 k n) * r (ix2 n q) := by
  rw [Ideal.matmul_constant_zero_apply, ← Equiv.sum_comp (contrEquiv1 (mmDims K N Q wf) N rfl rfl).symm]
  refine Finset.sum_congr rfl fun n _ => ?_
  have hn := contrEquiv1_symm_val (mmDims K N Q wf) N rfl rfl n
  have el : (mmDims K N Q wf).lhsIdx (ix2 k q) ((contrEquiv1 (mmDims K N Q wf) N rfl rfl).symm n) = ix2 k n :=
    funext fun a => Fin.ext (by
      match a with
      | ⟨0, _⟩ => exact lhs_row wf _ _
      | ⟨1, _⟩ => exact (lhs_col wf _ _).trans hn)
  have er : (mmDims K N Q wf).rhsIdx (ix2 k q) ((contrEquiv1 (mmDims K N Q wf) N rfl rfl).symm n) = ix2 n q :=
    funext fun a => Fin.ext (by
      match a with
      | ⟨0, _⟩ => exact (rhs_row wf _ _).trans hn
      | ⟨1, _⟩ => exact rhs_col wf _ _)
  rw [el, er]

end

end Idealize.ShloMosaic.DenseBlock

end
-- ==== Proof.LibDenseLayer.lean ====
/-
  A dense layer inside a kernel, read at an index.

  A kernel computes a layer on a block of `K` rows as a product of the block `[K, N]` with the weights laid out
  `[N, Q]`, into a zero accumulator, plus the bias, one row `[1, Q]` laid along every row of the block; a clamp
  between two constants may follow.  Over the extended reals entry `(p, q)` of the result is
  `Σ n, X (p, n) * Wt (n, q) + bias (0, q)`, clamped.
-/
import proofs.«103935_j69904887710540_1_alg».proof.Proof.LibDenseBlock
import Idealize.ShloMosaic.Lib.ValueLayout

noncomputable section

namespace Idealize.ShloMosaic.DenseLayer

open Idealize.ShloMosaic Idealize.ShloMosaic.ValueIdx Idealize.ShloMosaic.DenseBlock

variable {K N Q : Nat} (wf : DotDims.WF ⟨2, ![K, N]⟩ ⟨2, ![N, Q]⟩ ⟨2, ![K, Q]⟩ [1] [0] [0] [1] [] [])

/-- Entry `(p, q)` of `X · Wt + bias`, the bias one row laid along every row. -/
theorem affine_apply {φ₁ φ₂ : FTy} (X : FVec Ideal ⟨2, ![K, N]⟩ φ₁) (Wt : FVec Ideal ⟨2, ![N, Q]⟩ φ₂)
    (bias : FVec Ideal ⟨2, ![1, Q]⟩ .f32) (hb : (⟨2, ![1, Q]⟩ : Shape).Broadcasts ⟨2, ![K, Q]⟩) (p : Fin K) (q : Fin Q) :
    addf (matmul (mmDims K N Q wf) none X Wt (constant ⟨2, ![K, Q]⟩ .f32 0x00000000#32))
        (broadcastTo ⟨2, ![K, Q]⟩ bias hb) (ix2 p q)
      = (∑ n : Fin N, X (ix2 p n) * Wt (ix2 n q)) + bias (ix2 (0 : Fin 1) q) := by
  show FloatOps.matmul (mmDims K N Q wf) none X Wt (constant ⟨2, ![K, Q]⟩ .f32 0x00000000#32) (ix2 p q)
      + broadcastTo ⟨2, ![K, Q]⟩ bias hb (ix2 p q) = _
  rw [matmul_zero_apply wf X Wt p q, broadcastTo_1b_ab_apply bias hb p q]

/-- The same, clamped from below by the splat of `lo` and then from above by the splat of `hi`. -/
theorem affine_clamped_apply {φ₁ φ₂ : FTy} (X : FVec Ideal ⟨2, ![K, N]⟩ φ₁) (Wt : FVec Ideal ⟨2, ![N, Q]⟩ φ₂)
    (bias : FVec Ideal ⟨2, ![1, Q]⟩ .f32) (hb : (⟨2, ![1, Q]⟩ : Shape).Broadcasts ⟨2, ![K, Q]⟩) (lo hi : BitVec 32)
    (p : Fin K) (q : Fin Q) :
    minimumf (broadcast ⟨2, ![K, Q]⟩ (Scalar.ofBits (F := Ideal) .f32 hi))
        (maximumf (broadcast ⟨2, ![K, Q]⟩ (Scalar.ofBits (F := Ideal) .f32 lo))
          (addf (matmul (mmDims K N Q wf) none X Wt (constant ⟨2, ![K, Q]⟩ .f32 0x00000000#32))
            (broadcastTo ⟨2, ![K, Q]⟩ bias hb))) (ix2 p q)
      = min (Ideal.ofBits .f32 hi) (max (Ideal.ofBits .f32 lo)
          ((∑ n : Fin N, X (ix2 p n) * Wt (ix2 n q)) + bias (ix2 (0 : Fin 1) q))) := by
  show min (Ideal.ofBits .f32 hi) (max (Ideal.ofBits .f32 lo)
      (addf (matmul (mmDims K N Q wf) none X Wt (constant ⟨2, ![K, Q]⟩ .f32 0x00000000#32))
        (broadcastTo ⟨2, ![K, Q]⟩ bias hb) (ix2 p q))) = _
  rw [affine_apply wf X Wt bias hb p q]

end Idealize.ShloMosaic.DenseLayer

end
-- ==== Proof.MlpRow.lean ====
/-
  The function both programs compute, one input row at a time.

  A row x of two numbers goes through four dense layers of width 1024, each an affine map followed by tanh, and
  a last affine map to one number:

      h1 = tanh (x  · W0 + b0),  h2 = tanh (h1 · W1 + b1),  h3 = tanh (h2 · W2 + b2),
      h4 = tanh (h3 · W3 + b3),  y  = h4 · Wl + bl.

  Every row of the input is treated alike and no row sees another, so the whole result, a column of 65536 numbers,
  is this one function applied to each row.  Over the extended reals a product with a matrix is, entry by entry, a
  plain finite sum, which is the same number however the rows are grouped into blocks.
-/
import Idealize.ShloMosaic.Lib.ValueIdx

noncomputable section

open scoped BigOperators

namespace Cert.Mlp

open Idealize.ShloMosaic Idealize.ShloMosaic.ValueIdx

/-- An [N, Q] array read as a matrix. -/
def mat {N Q : ℕ} {φ : FTy} (w : FVec Ideal ⟨2, ![N, Q]⟩ φ) : Fin N → Fin Q → EReal := fun n q => w (ix2 n q)

/-- A [1, Q] array read as its one row. -/
def biasRow {Q : ℕ} {φ : FTy} (b : FVec Ideal ⟨2, ![1, Q]⟩ φ) : Fin Q → EReal := fun q => b (ix2 (0 : Fin 1) q)

/-- Row r of an [A, N] array. -/
def rowOf {A N : ℕ} {φ : FTy} (x : FVec Ideal ⟨2, ![A, N]⟩ φ) (r : Fin A) : Fin N → EReal := fun n => x (ix2 r n)

/-- One affine layer on a row: x · W + b. -/
def affineRow {N Q : ℕ} (W : Fin N → Fin Q → EReal) (b : Fin Q → EReal) (x : Fin N → EReal) : Fin Q → EReal :=
  fun q => (∑ n : Fin N, x n * W n q) + b q

/-- One hidden layer on a row: tanh (x · W + b). -/
def tanhRow {N Q : ℕ} (W : Fin N → Fin Q → EReal) (b : Fin Q → EReal) (x : Fin N → EReal) : Fin Q → EReal :=
  fun q => Ideal.tanh (affineRow W b x q)

/-- The network on one row of two numbers. -/
def mlpRow (W0 : Fin 2 → Fin 1024 → EReal) (b0 : Fin 1024 → EReal) (W1 : Fin 1024 → Fin 1024 → EReal) (b1 : Fin 1024 → EReal)
    (W2 : Fin 1024 → Fin 1024 → EReal) (b2 : Fin 1024 → EReal) (W3 : Fin 1024 → Fin 1024 → EReal) (b3 : Fin 1024 → EReal)
    (Wl : Fin 1024 → Fin 1 → EReal) (bl : Fin 1 → EReal) (x : Fin 2 → EReal) : EReal :=
  affineRow Wl bl (tanhRow W3 b3 (tanhRow W2 b2 (tanhRow W1 b1 (tanhRow W0 b0 x)))) (0 : Fin 1)

/-- The network on every row of a [65536, 2] array: the [65536, 1] result as one function of the arrays going in. -/
def mlpArray (x : FVec Ideal ⟨2, ![65536, 2]⟩ .f32) (w0 : FVec Ideal ⟨2, ![2, 1024]⟩ .f32) (b0 : FVec Ideal ⟨2, ![1, 1024]⟩ .f32)
    (w1 : FVec Ideal ⟨2, ![1024, 1024]⟩ .f32) (b1 : FVec Ideal ⟨2, ![1, 1024]⟩ .f32)
    (w2 : FVec Ideal ⟨2, ![1024, 1024]⟩ .f32) (b2 : FVec Ideal ⟨2, ![1, 1024]⟩ .f32)
    (w3 : FVec Ideal ⟨2, ![1024, 1024]⟩ .f32) (b3 : FVec Ideal ⟨2, ![1, 1024]⟩ .f32)
    (wl : FVec Ideal ⟨2, ![1024, 1]⟩ .f32) (bl : FVec Ideal ⟨2, ![1, 1]⟩ .f32) : FVec Ideal ⟨2, ![65536, 1]⟩ .f32 :=
  fun i => mlpRow (mat w0) (biasRow b0) (mat w1) (biasRow b1) (mat w2) (biasRow b2) (mat w3) (biasRow b3) (mat wl) (biasRow bl)
    (rowOf x (⟨(i 0).val, idx2_lt0 i⟩ : Fin 65536))

/-- Entry (r, 0) of the result is the network on row r. -/
theorem mlpArray_apply (x : FVec Ideal ⟨2, ![65536, 2]⟩ .f32) (w0 : FVec Ideal ⟨2, ![2, 1024]⟩ .f32) (b0 : FVec Ideal ⟨2, ![1, 1024]⟩ .f32)
    (w1 : FVec Ideal ⟨2, ![1024, 1024]⟩ .f32) (b1 : FVec Ideal ⟨2, ![1, 1024]⟩ .f32)
    (w2 : FVec Ideal ⟨2, ![1024, 1024]⟩ .f32) (b2 : FVec Ideal ⟨2, ![1, 1024]⟩ .f32)
    (w3 : FVec Ideal ⟨2, ![1024, 1024]⟩ .f32) (b3 : FVec Ideal ⟨2, ![1, 1024]⟩ .f32)
    (wl : FVec Ideal ⟨2, ![1024, 1]⟩ .f32) (bl : FVec Ideal ⟨2, ![1, 1]⟩ .f32) (r : Fin 65536) (z : Fin 1) :
    mlpArray x w0 b0 w1 b1 w2 b2 w3 b3 wl bl (ix2 r z)
      = mlpRow (mat w0) (biasRow b0) (mat w1) (biasRow b1) (mat w2) (biasRow b2) (mat w3) (biasRow b3) (mat wl) (biasRow bl)
          (rowOf x r) := rfl

end Cert.Mlp

end
-- ==== Proof.KernelRow.lean ====
/-
  What the kernel's body computes, one row of a block at a time.

  At a grid point the body holds a block of 2048 input rows and the whole of every weight matrix and bias row.  Each
  layer is a product of the current [2048, N] block with the [N, Q] weights, accumulated from zero, plus the bias row
  laid along the 2048 rows, then tanh; the narrowing of a layer's result before the next product changes nothing over
  the extended reals.  Entry (p, q) of a layer therefore depends on row p of its operand only, and row p of the stored
  [2048, 1] block is the network applied to row p of the input block.
-/
import proofs.«103935_j69904887710540_1_alg».proof.Proof.Gen.KernelIdeal.Skeleton
import proofs.«103935_j69904887710540_1_alg».proof.Proof.LibDenseLayer
import proofs.«103935_j69904887710540_1_alg».proof.Proof.MlpRow
import Idealize.ShloMosaic.Lib.Pipeline.Value

noncomputable section

open scoped BigOperators

namespace Cert.KernelIdeal.Row

open Idealize.ShloMosaic Idealize.ShloMosaic.ValueIdx Idealize.ShloMosaic.DenseBlock Idealize.ShloMosaic.DenseLayer
open Cert.KernelIdeal Cert.KernelIdeal.Gen Cert.Mlp

section Layers
variable {K N Q : ℕ} (wf : DotDims.WF ⟨2, ![K, N]⟩ ⟨2, ![N, Q]⟩ ⟨2, ![K, Q]⟩ [1] [0] [0] [1] [] [])

/-- Entry (p, q) of a product accumulated from zero plus a bias row is the affine layer on row p of the operand. -/
theorem affine_row {φ₁ φ₂ : FTy} (X : FVec Ideal ⟨2, ![K, N]⟩ φ₁) (Wt : FVec Ideal ⟨2, ![N, Q]⟩ φ₂)
    (bias : FVec Ideal ⟨2, ![1, Q]⟩ .f32) (hb : (⟨2, ![1, Q]⟩ : Shape).Broadcasts ⟨2, ![K, Q]⟩) (p : Fin K) (q : Fin Q) :
    addf (matmul (mmDims K N Q wf) none X Wt (constant ⟨2, ![K, Q]⟩ .f32 0x00000000#32))
        (broadcastTo ⟨2, ![K, Q]⟩ bias hb) (ix2 p q)
      = affineRow (mat Wt) (biasRow bias) (rowOf X p) q :=
  affine_apply wf X Wt bias hb p q

/-- Row p of a hidden layer of the kernel, narrowed for the next product, is the hidden layer on row p of its operand. -/
theorem hidden_row {φ₁ φ₂ : FTy} (X : FVec Ideal ⟨2, ![K, N]⟩ φ₁) (Wt : FVec Ideal ⟨2, ![N, Q]⟩ φ₂)
    (bias : FVec Ideal ⟨2, ![1, Q]⟩ .f32) (hb : (⟨2, ![1, Q]⟩ : Shape).Broadcasts ⟨2, ![K, Q]⟩)
    (hlt : FTy.bits .bf16 < FTy.bits .f32) (p : Fin K) :
    rowOf (truncf .bf16 (tanh (addf (matmul (mmDims K N Q wf) none X Wt (constant ⟨2, ![K, Q]⟩ .f32 0x00000000#32))
        (broadcastTo ⟨2, ![K, Q]⟩ bias hb))) hlt : FVec Ideal ⟨2, ![K, Q]⟩ .bf16) p
      = tanhRow (mat Wt) (biasRow bias) (rowOf X p) :=
  funext fun q => congrArg Ideal.tanh (affine_apply wf X Wt bias hb p q)

end Layers

/-- The dimension numbers of the three products are those of [K, N] · [N, Q]. -/
theorem dims_first : dot_S2048x2_S2x1024_S2048x1024_1_0_0_1_n_n
    = mmDims 2048 2 1024 Facts₀.dot_S2048x2_S2x1024_S2048x1024_1_0_0_1_n_n_wf := rfl
theorem dims_mid : dot_S2048x1024_S1024x1024_S2048x1024_1_0_0_1_n_n
    = mmDims 2048 1024 1024 Facts₀.dot_S2048x1024_S1024x1024_S2048x1024_1_0_0_1_n_n_wf := rfl
theorem dims_last : dot_S2048x1024_S1024x1_S2048x1_1_0_0_1_n_n
    = mmDims 2048 1024 1 Facts₀.dot_S2048x1024_S1024x1_S2048x1_1_0_0_1_n_n_wf := rfl

/-- Row p of the block the body stores is the network on row p of the input block. -/
theorem stored_row (x0 : FVec Ideal S2048x2 .f32) (w0 : FVec Ideal S2x1024 .bf16) (b0 : FVec Ideal S1x1024 .f32)
    (w1 : FVec Ideal S1024x1024 .bf16) (b1 : FVec Ideal S1x1024 .f32) (w2 : FVec Ideal S1024x1024 .bf16) (b2 : FVec Ideal S1x1024 .f32)
    (w3 : FVec Ideal S1024x1024 .bf16) (b3 : FVec Ideal S1x1024 .f32) (wl : FVec Ideal S1024x1 .bf16) (bl : FVec Ideal S1x1 .f32)
    (p : Fin 2048) (z : Fin 1) :
    k0_pay1 (F := Ideal) (k0_pay2 (F := Ideal) x0 w0 b0 w1 b1 w2 b2 w3 b3) wl bl (ix2 p z)
      = mlpRow (mat w0) (biasRow b0) (mat w1) (biasRow b1) (mat w2) (biasRow b2) (mat w3) (biasRow b3) (mat wl) (biasRow bl)
          (rowOf x0 p) := by
  obtain rfl : z = 0 := Subsingleton.elim _ _
  unfold k0_pay1 k0_pay2
  simp only [shapeCast_self, dims_first, dims_mid, dims_last]
  rw [affine_row, hidden_row, hidden_row, hidden_row, hidden_row]
  rfl

end Cert.KernelIdeal.Row

end
-- ==== Proof.KernelBlocks.lean ====
/-
  From blocks to the whole result.

  The grid has 32 points.  At point t the kernel reads rows 2048·t … 2048·t + 2047 of the rescaled input and the whole
  of every weight matrix and bias row (their blocks do not move with t), and writes rows 2048·t … 2048·t + 2047 of the
  result.  Row p of what it writes is the network on row p of its input block, that is, on row 2048·t + p of the input.
  So what point t writes back is block t of ONE array, the network applied to every row; the 32 blocks are disjoint and
  together are all 65536 rows (row r lies in block r / 2048), hence after the run the result array is that array.
-/
import proofs.«103935_j69904887710540_1_alg».proof.Proof.Gen.KernelIdeal.Value
import proofs.«103935_j69904887710540_1_alg».proof.Proof.KernelRow
import Idealize.ShloMosaic.Lib.Pipeline.Value

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.ValueIdx Cert.Mlp
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-- The network on every row of the arrays as the region finds them. -/
def entryArray (c : Dev nD) : S65536x1.Idx → EReal :=
  mlpArray (V m c main_v26) (V m c main_v27) (V m c main_arg2) (V m c main_v28) (V m c main_arg4) (V m c main_v30) (V m c main_arg6) (V m c main_v32) (V m c main_arg8) (V m c main_v33) (V m c main_arg10)

/-- Where each window's block sits at point t: the input's and the result's at block row t, every other at the origin. -/
theorem index_facts : ∀ t : Fin cfg0.N,
    win0_0.index t (0 : Fin 2) = t.val
    ∧ win0_0.index t (1 : Fin 2) = 0
    ∧ win0_1.index t (0 : Fin 2) = 0
    ∧ win0_1.index t (1 : Fin 2) = 0
    ∧ win0_2.index t (0 : Fin 2) = 0
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = 0
    ∧ win0_7.index t (1 : Fin 2) = 0
    ∧ win0_8.index t (0 : Fin 2) = 0
    ∧ win0_8.index t (1 : Fin 2) = 0
    ∧ win0_9.index t (0 : Fin 2) = 0
    ∧ win0_9.index t (1 : Fin 2) = 0
    ∧ win0_10.index t (0 : Fin 2) = 0
    ∧ win0_10.index t (1 : Fin 2) = 0
    ∧ win0_11.index t (0 : Fin 2) = t.val
    ∧ win0_11.index t (1 : Fin 2) = 0 :=
  (by decide +kernel : ∀ t : Fin grid0.N, _)

/-- Row p of the input block at point t is row 2048·t + p of the rescaled input. -/
theorem block_0 (c : Dev nD) (t : Fin cfg0.N) (p : Fin 2048) (k : Fin 2) (hr : t.val * 2048 + p.val < 65536) :
    iblk m c 0 t (ix2 p k) = V m c main_v26 (ix2 (⟨t.val * 2048 + p.val, hr⟩ : Fin 65536) k) := by
  show V m c main_v26 (((cfg0.win 0).blk t).view.emb (ix2 p k)) = _
  refine congrArg (V m c main_v26) (funext fun a => Fin.ext ?_)
  obtain ⟨e0, e1, -, -, -, -, -, -, -, -, -, -, -, -, -, -, -, -, -, -, -, -, -, -⟩ := index_facts t
  match a with
  | ⟨0, _⟩ => show win0_0.index t (0 : Fin 2) * 2048 + 1 * p.val = t.val * 2048 + p.val; omega
  | ⟨1, _⟩ => show win0_0.index t (1 : Fin 2) * 2 + 1 * k.val = k.val; omega

/-- Window 1 holds the whole of its array at every point. -/
theorem block_1 (c : Dev nD) (t : Fin cfg0.N) : (iblk m c 1 t : S2x1024.Idx → EReal) = V m c main_v27 := by
  funext y
  show V m c main_v27 (((cfg0.win 1).blk t).view.emb y) = V m c main_v27 y
  refine congrArg (V m c main_v27) (funext fun a => Fin.ext ?_)
  obtain ⟨-, -, e0, e1, -, -, -, -, -, -, -, -, -, -, -, -, -, -, -, -, -, -, -, -⟩ := index_facts t
  match a with
  | ⟨0, _⟩ => show win0_1.index t (0 : Fin 2) * 2 + 1 * (y 0).val = (y 0).val; omega
  | ⟨1, _⟩ => show win0_1.index t (1 : Fin 2) * 1024 + 1 * (y 1).val = (y 1).val; omega

/-- Window 2 holds the whole of its array at every point. -/
theorem block_2 (c : Dev nD) (t : Fin cfg0.N) : (iblk m c 2 t : S1x1024.Idx → EReal) = V m c main_arg2 := by
  funext y
  show V m c main_arg2 (((cfg0.win 2).blk t).view.emb y) = V m c main_arg2 y
  refine congrArg (V m c main_arg2) (funext fun a => Fin.ext ?_)
  obtain ⟨-, -, -, -, e0, e1, -, -, -, -, -, -, -, -, -, -, -, -, -, -, -, -, -, -⟩ := index_facts t
  match a with
  | ⟨0, _⟩ => show win0_2.index t (0 : Fin 2) * 1 + 1 * (y 0).val = (y 0).val; omega
  | ⟨1, _⟩ => show win0_2.index t (1 : Fin 2) * 1024 + 1 * (y 1).val = (y 1).val; omega

/-- Window 3 holds the whole of its array at every point. -/
theorem block_3 (c : Dev nD) (t : Fin cfg0.N) : (iblk m c 3 t : S1024x1024.Idx → EReal) = V m c main_v28 := by
  funext y
  show V m c main_v28 (((cfg0.win 3).blk t).view.emb y) = V m c main_v28 y
  refine congrArg (V m c main_v28) (funext fun a => Fin.ext ?_)
  obtain ⟨-, -, -, -, -, -, e0, e1, -, -, -, -, -, -, -, -, -, -, -, -, -, -, -, -⟩ := index_facts t
  match a with
  | ⟨0, _⟩ => show win0_3.index t (0 : Fin 2) * 1024 + 1 * (y 0).val = (y 0).val; omega
  | ⟨1, _⟩ => show win0_3.index t (1 : Fin 2) * 1024 + 1 * (y 1).val = (y 1).val; omega

/-- Window 4 holds the whole of its array at every point. -/
theorem block_4 (c : Dev nD) (t : Fin cfg0.N) : (iblk m c 4 t : S1x1024.Idx → EReal) = V m c main_arg4 := by
  funext y
  show V m c main_arg4 (((cfg0.win 4).blk t).view.emb y) = V m c main_arg4 y
  refine congrArg (V m c main_arg4) (funext fun a => Fin.ext ?_)
  obtain ⟨-, -, -, -, -, -, -, -, e0, e1, -, -, -, -, -, -, -, -, -, -, -, -, -, -⟩ := index_facts t
  match a with
  | ⟨0, _⟩ => show win0_4.index t (0 : Fin 2) * 1 + 1 * (y 0).val = (y 0).val; omega
  | ⟨1, _⟩ => show win0_4.index t (1 : Fin 2) * 1024 + 1 * (y 1).val = (y 1).val; omega

/-- Window 5 holds the whole of its array at every point. -/
theorem block_5 (c : Dev nD) (t : Fin cfg0.N) : (iblk m c 5 t : S1024x1024.Idx → EReal) = V m c main_v30 := by
  funext y
  show V m c main_v30 (((cfg0.win 5).blk t).view.emb y) = V m c main_v30 y
  refine congrArg (V m c main_v30) (funext fun a => Fin.ext ?_)
  obtain ⟨-, -, -, -, -, -, -, -, -, -, e0, e1, -, -, -, -, -, -, -, -, -, -, -, -⟩ := index_facts t
  match a with
  | ⟨0, _⟩ => show win0_5.index t (0 : Fin 2) * 1024 + 1 * (y 0).val = (y 0).val; omega
  | ⟨1, _⟩ => show win0_5.index t (1 : Fin 2) * 1024 + 1 * (y 1).val = (y 1).val; omega

/-- Window 6 holds the whole of its array at every point. -/
theorem block_6 (c : Dev nD) (t : Fin cfg0.N) : (iblk m c 6 t : S1x1024.Idx → EReal) = V m c main_arg6 := by
  funext y
  show V m c main_arg6 (((cfg0.win 6).blk t).view.emb y) = V m c main_arg6 y
  refine congrArg (V m c main_arg6) (funext fun a => Fin.ext ?_)
  obtain ⟨-, -, -, -, -, -, -, -, -, -, -, -, e0, e1, -, -, -, -, -, -, -, -, -, -⟩ := index_facts t
  match a with
  | ⟨0, _⟩ => show win0_6.index t (0 : Fin 2) * 1 + 1 * (y 0).val = (y 0).val; omega
  | ⟨1, _⟩ => show win0_6.index t (1 : Fin 2) * 1024 + 1 * (y 1).val = (y 1).val; omega

/-- Window 7 holds the whole of its array at every point. -/
theorem block_7 (c : Dev nD) (t : Fin cfg0.N) : (iblk m c 7 t : S1024x1024.Idx → EReal) = V m c main_v32 := by
  funext y
  show V m c main_v32 (((cfg0.win 7).blk t).view.emb y) = V m c main_v32 y
  refine congrArg (V m c main_v32) (funext fun a => Fin.ext ?_)
  obtain ⟨-, -, -, -, -, -, -, -, -, -, -, -, -, -, e0, e1, -, -, -, -, -, -, -, -⟩ := index_facts t
  match a with
  | ⟨0, _⟩ => show win0_7.index t (0 : Fin 2) * 1024 + 1 * (y 0).val = (y 0).val; omega
  | ⟨1, _⟩ => show win0_7.index t (1 : Fin 2) * 1024 + 1 * (y 1).val = (y 1).val; omega

/-- Window 8 holds the whole of its array at every point. -/
theorem block_8 (c : Dev nD) (t : Fin cfg0.N) : (iblk m c 8 t : S1x1024.Idx → EReal) = V m c main_arg8 := by
  funext y
  show V m c main_arg8 (((cfg0.win 8).blk t).view.emb y) = V m c main_arg8 y
  refine congrArg (V m c main_arg8) (funext fun a => Fin.ext ?_)
  obtain ⟨-, -, -, -, -, -, -, -, -, -, -, -, -, -, -, -, e0, e1, -, -, -, -, -, -⟩ := index_facts t
  match a with
  | ⟨0, _⟩ => show win0_8.index t (0 : Fin 2) * 1 + 1 * (y 0).val = (y 0).val; omega
  | ⟨1, _⟩ => show win0_8.index t (1 : Fin 2) * 1024 + 1 * (y 1).val = (y 1).val; omega

/-- Window 9 holds the whole of its array at every point. -/
theorem block_9 (c : Dev nD) (t : Fin cfg0.N) : (iblk m c 9 t : S1024x1.Idx → EReal) = V m c main_v33 := by
  funext y
  show V m c main_v33 (((cfg0.win 9).blk t).view.emb y) = V m c main_v33 y
  refine congrArg (V m c main_v33) (funext fun a => Fin.ext ?_)
  obtain ⟨-, -, -, -, -, -, -, -, -, -, -, -, -, -, -, -, -, -, e0, e1, -, -, -, -⟩ := index_facts t
  match a with
  | ⟨0, _⟩ => show win0_9.index t (0 : Fin 2) * 1024 + 1 * (y 0).val = (y 0).val; omega
  | ⟨1, _⟩ => show win0_9.index t (1 : Fin 2) * 1 + 1 * (y 1).val = (y 1).val; omega

/-- Window 10 holds the whole of its array at every point. -/
theorem block_10 (c : Dev nD) (t : Fin cfg0.N) : (iblk m c 10 t : S1x1.Idx → EReal) = V m c main_arg10 := by
  funext y
  show V m c main_arg10 (((cfg0.win 10).blk t).view.emb y) = V m c main_arg10 y
  refine congrArg (V m c main_arg10) (funext fun a => Fin.ext ?_)
  obtain ⟨-, -, -, -, -, -, -, -, -, -, -, -, -, -, -, -, -, -, -, -, e0, e1, -, -⟩ := index_facts t
  match a with
  | ⟨0, _⟩ => show win0_10.index t (0 : Fin 2) * 1 + 1 * (y 0).val = (y 0).val; omega
  | ⟨1, _⟩ => show win0_10.index t (1 : Fin 2) * 1 + 1 * (y 1).val = (y 1).val; omega

/-- Row p of what the body leaves in the result's buffer is the network on row p of the input block. -/
theorem out_row (x0 : FVec Ideal S2048x2 .f32) (x1 : FVec Ideal S2x1024 .bf16) (x2 : FVec Ideal S1x1024 .f32)
    (x3 : FVec Ideal S1024x1024 .bf16) (x4 : FVec Ideal S1x1024 .f32) (x5 : FVec Ideal S1024x1024 .bf16) (x6 : FVec Ideal S1x1024 .f32)
    (x7 : FVec Ideal S1024x1024 .bf16) (x8 : FVec Ideal S1x1024 .f32) (x9 : FVec Ideal S1024x1 .bf16) (x10 : FVec Ideal S1x1 .f32)
    (p : Fin 2048) (z : Fin 1) :
    out0_11 (F := Ideal) x0 x1 x2 x3 x4 x5 x6 x7 x8 x9 x10 (ix2 p z)
      = mlpRow (mat x1) (biasRow x2) (mat x3) (biasRow x4) (mat x5) (biasRow x6) (mat x7) (biasRow x8) (mat x9) (biasRow x10)
          (rowOf x0 p) := by
  unfold out0_11
  rw [View.canon_unit_zero zero_offsets]
  simp only [View.ld_unit_zero (S := S2048x2) zero_offsets, View.ld_unit_zero (S := S2x1024) zero_offsets,
    View.ld_unit_zero (S := S1x1024) zero_offsets, View.ld_unit_zero (S := S1024x1024) zero_offsets,
    View.ld_unit_zero (S := S1024x1) zero_offsets, View.ld_unit_zero (S := S1x1) zero_offsets]
  exact Row.stored_row x0 x1 x2 x3 x4 x5 x6 x7 x8 x9 x10 p z

/-- What point t writes back is block t of the network on every row. -/
theorem flushed_eq (c : Dev nD) (t : Fin cfg0.N) :
    (dats m 0 c).flushed 11 t = ((cfg0.win 11).blk t).view.read (Elt Ideal) (entryArray m c) := by
  rw [Value.flushed11]
  funext j
  obtain ⟨p, z, rfl⟩ : ∃ (p : Fin 2048) (z : Fin 1), j = ix2 p z := ⟨j 0, j 1, eq_ix2 j⟩
  have ht : t.val < 32 := t.isLt
  have hp := p.isLt
  have hr : t.val * 2048 + p.val < 65536 := by omega
  have hemb : ((cfg0.win 11).blk t).view.emb (ix2 p z) = ix2 (⟨t.val * 2048 + p.val, hr⟩ : Fin 65536) z := by
    funext a; apply Fin.ext
    obtain ⟨-, -, -, -, -, -, -, -, -, -, -, -, -, -, -, -, -, -, -, -, -, -, e0, e1⟩ := index_facts t
    have hz := z.isLt
    match a with
    | ⟨0, _⟩ => show win0_11.index t (0 : Fin 2) * 2048 + 1 * p.val = t.val * 2048 + p.val; omega
    | ⟨1, _⟩ => show win0_11.index t (1 : Fin 2) * 1 + 1 * z.val = z.val; omega
  show out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 p z) = entryArray m c (((cfg0.win 11).blk t).view.emb (ix2 p z))
  rw [hemb]
  refine (out_row (iblk m c 0 t) (iblk m c 1 t) (iblk m c 2 t) (iblk m c 3 t) (iblk m c 4 t) (iblk m c 5 t) (iblk m c 6 t) (iblk m c 7 t) (iblk m c 8 t) (iblk m c 9 t) (iblk m c 10 t) p z).trans ?_
  rw [block_1 m c t, block_2 m c t, block_3 m c t, block_4 m c t, block_5 m c t, block_6 m c t, block_7 m c t, block_8 m c t, block_9 m c t, block_10 m c t]
  have hrow : rowOf (φ := .f32) (iblk m c 0 t) p
      = rowOf (φ := .f32) (V m c main_v26) (⟨t.val * 2048 + p.val, hr⟩ : Fin 65536) :=
    funext fun k => block_0 m c t p k hr
  rw [hrow]
  exact (mlpArray_apply (V m c main_v26) (V m c main_v27) (V m c main_arg2) (V m c main_v28) (V m c main_arg4) (V m c main_v30) (V m c main_arg6) (V m c main_v32) (V m c main_arg8) (V m c main_v33) (V m c main_arg10) (⟨t.val * 2048 + p.val, hr⟩ : Fin 65536) z).symm

/-- An index of the result is in point t's block iff each coordinate is in the block's range. -/
theorem mem_block (t : Fin cfg0.N) (i : S65536x1.Idx) :
    i ∈ ((cfg0.win 11).blk t).view.set ↔ ∀ a : Fin 2, win0_11.index t a * S2048x1.size a ≤ (i a).val ∧ (i a).val < win0_11.index t a * S2048x1.size a + S2048x1.size a := by
  show i ∈ ((View.whole main_v34).slice (win0_11.rect t)).set ↔ _
  rw [View.set_slice_whole, Rect.mem_set_unit]
  exact Iff.rfl

/-- Every block row is some point's. -/
theorem index_onto : ∀ q : Fin 32, ∃ t : Fin cfg0.N, win0_11.index t = ![q.val, 0] :=
  (by decide +kernel : ∀ q : Fin 32, ∃ t : Fin grid0.N, win0_11.index t = ![q.val, 0])

/-- Every row of the result is in some point's block: row r in block r / 2048. -/
theorem covered (i : S65536x1.Idx) :
    ∃ t : Fin cfg0.N, (cfg0.win 11).flush t = true ∧ i ∈ ((cfg0.win 11).blk t).view.set := by
  have hi0 : (i 0).val < 65536 := (i 0).isLt
  have hi1 : (i 1).val < 1 := (i 1).isLt
  obtain ⟨t, ht⟩ := index_onto ⟨(i 0).val / 2048, by omega⟩
  have q0 : win0_11.index t (0 : Fin 2) = (i 0).val / 2048 := congrFun ht 0
  have q1 : win0_11.index t (1 : Fin 2) = 0 := congrFun ht 1
  refine ⟨t, flush0_11 t, ?_⟩
  rw [mem_block]
  intro a
  match a with
  | ⟨0, _⟩ => show win0_11.index t (0 : Fin 2) * 2048 ≤ (i 0).val ∧ (i 0).val < win0_11.index t (0 : Fin 2) * 2048 + 2048; omega
  | ⟨1, _⟩ => show win0_11.index t (1 : Fin 2) * 1 ≤ (i 1).val ∧ (i 1).val < win0_11.index t (1 : Fin 2) * 1 + 1; omega

/-- After the run the result array is the network on every row of the arrays the region found. -/
theorem final (c : Dev nD) : (dats m 0 c).arrAt 11 cfg0.N = entryArray m c :=
  (dats m 0 c).arrAt_eq_of_cover 11 (entryArray m c) (fun t _ => flushed_eq m c t) covered

end Cert.KernelIdeal.Blocks

end
-- ==== Proof.KernelHost.lean ====
/-
  What the kernel's region finds in the arrays it reads.

  Before the kernel is launched the program prepares, with ordinary array operations, everything the kernel reads that
  is not an argument as given: the input rescaled to [-1, 1] coordinate by coordinate,
  x ↦ 2 · (x - lo) / (hi - lo) - 1 with lo = (0, 0) and hi the row of two fixed numbers; the weights of the third and
  fourth layers multiplied entry by entry with a block-diagonal mask of zeros and ones (the Kronecker product of an
  identity matrix of 2, respectively 4, blocks with a square of ones); and every weight matrix narrowed to the format
  the matrix unit takes, which changes no value over the extended reals.  The masks depend on no argument.
-/
import proofs.«103935_j69904887710540_1_alg».proof.Proof.Gen.KernelIdeal.Frame
import Idealize.ShloMosaic.Lib.StableHlo.Run

noncomputable section

namespace Cert.KernelIdeal.HostPrefix

open Cert.KernelIdeal Cert.KernelIdeal.Gen Idealize.ShloMosaic Idealize.ShloMosaic.TcCoe Idealize.SL.Sem Idealize.ShloMosaic.StableHlo

variable {F : FTy → Type} [FloatOps F]

/-- The input rescaled to [-1, 1]: 2 · (x - lo) / (hi - lo) - 1, lo and hi rows of two numbers laid along every row. -/
def normed (x : FVec F S65536x2 .f32) : FVec F S65536x2 .f32 :=
  subf
    (Host.divf
      (mulf (broadcastInDim S65536x2 ![] bcast_S_S65536x2 (constant S_ .f32 0x40000000#32))
        (subf x (broadcastInDim S65536x2 ![0, 1] bcast_S1x2_S65536x2_0_1
          (broadcastInDim S1x2 ![1] bcast_S2_S1x2_1 (constant S2 .f32 0x00000000#32)))))
      (broadcastInDim S65536x2 ![0, 1] bcast_S1x2_S65536x2_0_1
        (broadcastInDim S1x2 ![1] bcast_S2_S1x2_1
          (subf (fun i => FloatOps.ofBits .f32 (lit0 (S2.rowMajor i))) (constant S2 .f32 0x00000000#32)))))
    (broadcastInDim S65536x2 ![] bcast_S_S65536x2 (constant S_ .f32 0x3F800000#32))

/-- The 2 × 2 identity matrix: 1 where the row index equals the column index. -/
def eye2 : FVec F S2x2 .f32 :=
  uitofp .f32 (cmpi .eq (addi (iotaInDim S2x2 32 0) (broadcastInDim S2x2 ![] bcast_S_S2x2 (constantI S_ 32 0#32))) (iotaInDim S2x2 32 1))

/-- The 4 × 4 identity matrix. -/
def eye4 : FVec F S4x4 .f32 :=
  uitofp .f32 (cmpi .eq (addi (iotaInDim S4x4 32 0) (broadcastInDim S4x4 ![] bcast_S_S4x4 (constantI S_ 32 0#32))) (iotaInDim S4x4 32 1))

/-- The mask of the third layer: two diagonal 512 × 512 blocks of ones in a 1024 × 1024 matrix of zeros. -/
def mask2 : FVec F S1024x1024 .f32 :=
  shapeCast S1024x1024
    (mulf
      (broadcastInDim S2x512x2x512 ![0, 1, 2, 3] bcast_S2x1x2x1_S2x512x2x512_0_1_2_3
        (broadcastInDim S2x1x2x1 ![0, 2] bcast_S2x2_S2x1x2x1_0_2 (eye2 (F := F))))
      (broadcastInDim S2x512x2x512 ![0, 1, 2, 3] bcast_S1x512x1x512_S2x512x2x512_0_1_2_3
        (broadcastInDim S1x512x1x512 ![1, 3] bcast_S512x512_S1x512x1x512_1_3
          (broadcastInDim S512x512 ![] bcast_S_S512x512 (constant (F := F) S_ .f32 0x3F800000#32)))))
    shapeCasts_S2x512x2x512_S1024x1024

/-- The mask of the fourth layer: four diagonal 256 × 256 blocks of ones. -/
def mask3 : FVec F S1024x1024 .f32 :=
  shapeCast S1024x1024
    (mulf
      (broadcastInDim S4x256x4x256 ![0, 1, 2, 3] bcast_S4x1x4x1_S4x256x4x256_0_1_2_3
        (broadcastInDim S4x1x4x1 ![0, 2] bcast_S4x4_S4x1x4x1_0_2 (eye4 (F := F))))
      (broadcastInDim S4x256x4x256 ![0, 1, 2, 3] bcast_S1x256x1x256_S4x256x4x256_0_1_2_3
        (broadcastInDim S1x256x1x256 ![1, 3] bcast_S256x256_S1x256x1x256_1_3
          (broadcastInDim S256x256 ![] bcast_S_S256x256 (constant (F := F) S_ .f32 0x3F800000#32)))))
    shapeCasts_S4x256x4x256_S1024x1024

variable (m : (ℓ : Loc nD τ sig) → Buf (Elt F) ℓ)

set_option maxRecDepth 8192
set_option maxHeartbeats 2000000

/-- The kernel's first operand is the rescaled input. -/
theorem entry_x (c : Dev nD) : (V m c main_v26 : S65536x2.Idx → F .f32) = normed (m ((c : Thread nD τ).loc main_arg0)) := by
  dsimp only [Gen.V]
  simp only [Gen.hostOps0, Gen.hostOps0_1, Gen.hostOps0_2, Gen.hostOps0_3, Gen.hostOps0_4, List.flatten_cons, List.flatten_nil, List.append_nil, List.cons_append, List.nil_append]
  after_results_simp
  rfl

/-- The first layer's weights, narrowed. -/
theorem entry_w0 (c : Dev nD) : (V m c main_v27 : S2x1024.Idx → F .bf16) = truncf .bf16 (m ((c : Thread nD τ).loc main_arg1)) bitsLt_bf16_f32 := by
  dsimp only [Gen.V]
  simp only [Gen.hostOps0, Gen.hostOps0_1, Gen.hostOps0_2, Gen.hostOps0_3, Gen.hostOps0_4, List.flatten_cons, List.flatten_nil, List.append_nil, List.cons_append, List.nil_append]
  after_results_simp

/-- The second layer's weights, narrowed. -/
theorem entry_w1 (c : Dev nD) : (V m c main_v28 : S1024x1024.Idx → F .bf16) = truncf .bf16 (m ((c : Thread nD τ).loc main_arg3)) bitsLt_bf16_f32 := by
  dsimp only [Gen.V]
  simp only [Gen.hostOps0, Gen.hostOps0_1, Gen.hostOps0_2, Gen.hostOps0_3, Gen.hostOps0_4, List.flatten_cons, List.flatten_nil, List.append_nil, List.cons_append, List.nil_append]
  after_results_simp

/-- The third layer's weights, masked and narrowed. -/
theorem entry_w2 (c : Dev nD) : (V m c main_v30 : S1024x1024.Idx → F .bf16) = truncf .bf16 (mulf (m ((c : Thread nD τ).loc main_arg5)) (mask2 (F := F))) bitsLt_bf16_f32 := by
  dsimp only [Gen.V]
  simp only [Gen.hostOps0, Gen.hostOps0_1, Gen.hostOps0_2, Gen.hostOps0_3, Gen.hostOps0_4, List.flatten_cons, List.flatten_nil, List.append_nil, List.cons_append, List.nil_append]
  after_results_simp
  rfl

/-- The fourth layer's weights, masked and narrowed. -/
theorem entry_w3 (c : Dev nD) : (V m c main_v32 : S1024x1024.Idx → F .bf16) = truncf .bf16 (mulf (m ((c : Thread nD τ).loc main_arg7)) (mask3 (F := F))) bitsLt_bf16_f32 := by
  dsimp only [Gen.V]
  simp only [Gen.hostOps0, Gen.hostOps0_1, Gen.hostOps0_2, Gen.hostOps0_3, Gen.hostOps0_4, List.flatten_cons, List.flatten_nil, List.append_nil, List.cons_append, List.nil_append]
  after_results_simp
  rfl

/-- The last layer's weights, narrowed. -/
theorem entry_wl (c : Dev nD) : (V m c main_v33 : S1024x1.Idx → F .bf16) = truncf .bf16 (m ((c : Thread nD τ).loc main_arg9)) bitsLt_bf16_f32 := by
  dsimp only [Gen.V]
  simp only [Gen.hostOps0, Gen.hostOps0_1, Gen.hostOps0_2, Gen.hostOps0_3, Gen.hostOps0_4, List.flatten_cons, List.flatten_nil, List.append_nil, List.cons_append, List.nil_append]
  after_results_simp

end Cert.KernelIdeal.HostPrefix

end
-- ==== Proof.KernelRun.lean ====
/-
  The kernel's program run from start to end, its result as one function of the arguments.

  The arrays the region reads are the rescaled input, the weights (the third and fourth layers' masked) narrowed to the
  matrix unit's format, and the bias rows as given.  Over the extended reals the narrowing is the identity, so the
  network the 32 grid points compute block by block is the network on the rescaled input with the masked weights:
  after the run the result array holds it on every row, and no argument has changed.
-/
import proofs.«103935_j69904887710540_1_alg».proof.Proof.KernelBlocks
import proofs.«103935_j69904887710540_1_alg».proof.Proof.KernelHost

noncomputable section

namespace Cert.KernelIdeal.KernelRun

open Cert.KernelIdeal Cert.KernelIdeal.Gen Idealize.ShloMosaic Idealize.ShloMosaic.TcCoe Idealize.SL.Sem
open Idealize.ShloMosaic.ValueIdx Cert.Mlp

variable (m : (ℓ : Loc nD τ sig) → Buf (Elt Ideal) ℓ) (ρ : Dev nD → PrngReg)

/-- The network on the arrays the region finds is the network on the rescaled input with the masked weights. -/
theorem entry_eq (c : Dev nD) :
    Blocks.entryArray m c
      = mlpArray (HostPrefix.normed (m ((c : Thread nD τ).loc main_arg0))) (m ((c : Thread nD τ).loc main_arg1)) (m ((c : Thread nD τ).loc main_arg2)) (m ((c : Thread nD τ).loc main_arg3)) (m ((c : Thread nD τ).loc main_arg4))
        (mulf (m ((c : Thread nD τ).loc main_arg5)) (HostPrefix.mask2 (F := Ideal))) (m ((c : Thread nD τ).loc main_arg6))
        (mulf (m ((c : Thread nD τ).loc main_arg7)) (HostPrefix.mask3 (F := Ideal))) (m ((c : Thread nD τ).loc main_arg8)) (m ((c : Thread nD τ).loc main_arg9)) (m ((c : Thread nD τ).loc main_arg10)) := by
  unfold Blocks.entryArray
  rw [HostPrefix.entry_x m c, HostPrefix.entry_w0 m c, V_main_arg2 m c, HostPrefix.entry_w1 m c, V_main_arg4 m c,
    HostPrefix.entry_w2 m c, V_main_arg6 m c, HostPrefix.entry_w3 m c, V_main_arg8 m c, HostPrefix.entry_wl m c, V_main_arg10 m c]
  rfl

/-- Every execution of the kernel's program terminates with the result array at the network on every row of the
    rescaled input, and the arguments unchanged. -/
theorem run : θ_run defs (onTc (τ := τ) (main (F := Ideal))) ⟨m, fun _ => 0, ρ⟩ fun r => ∀ c : Dev nD,
      r.2.mem ((c : Thread nD τ).loc main_v34)
        = mlpArray (HostPrefix.normed (m ((c : Thread nD τ).loc main_arg0))) (m ((c : Thread nD τ).loc main_arg1)) (m ((c : Thread nD τ).loc main_arg2)) (m ((c : Thread nD τ).loc main_arg3)) (m ((c : Thread nD τ).loc main_arg4))
        (mulf (m ((c : Thread nD τ).loc main_arg5)) (HostPrefix.mask2 (F := Ideal))) (m ((c : Thread nD τ).loc main_arg6))
        (mulf (m ((c : Thread nD τ).loc main_arg7)) (HostPrefix.mask3 (F := Ideal))) (m ((c : Thread nD τ).loc main_arg8)) (m ((c : Thread nD τ).loc main_arg9)) (m ((c : Thread nD τ).loc main_arg10))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h c).1.trans ((Blocks.final m c).trans (entry_eq m c)), (h c).2⟩)
    (Value.run_blocks m ρ)

end Cert.KernelIdeal.KernelRun

end
-- ==== Proof.RefRun.lean ====
/-
  The reference program run from start to end.

  The reference has no kernel: it is a straight line of 66 array operations.  The first 35 build the two block-diagonal
  masks (an identity matrix of 2 or 4 blocks spread over blocks of ones: a Kronecker product, written by the program as
  two broadcasts, a product and a flattening of [a, b, a, b] to [a·b, a·b]) and rescale the input to [-1, 1]; the rest
  are the five layers.  Listed in order with the two Kronecker products written out where they are called, the program
  is that list run in sequence, so every execution ends with each array holding what the operations, applied in order
  to the arguments as launched, compute.
-/
import proofs.«103935_j69904887710540_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The program's 66 operations, in order. -/
abbrev ops : List (HloOp τ sig (Elt F)) :=
  [ nullary main_cst (constant S2 .f32 0x00000000#32),
    nullary main_cst_0 (fun i => FloatOps.ofBits .f32 (lit0 (S2.rowMajor i))),
    nullary main_v0 (iotaInDim S2x2 32 0),
    nullary main_v1 (iotaInDim S2x2 32 1),
    nullary main_c (constantI S_ 32 0#32),
    unary main_c main_v2 (broadcastInDim S2x2 ![] bcast_S_S2x2 : (⟨S_, .i32⟩ : BufTy).Contents (Elt F) → (⟨S2x2, .i32⟩ : BufTy).Contents (Elt F)),
    binary main_v0 main_v2 main_v3 (addi : (⟨S2x2, .i32⟩ : BufTy).Contents (Elt F) → (⟨S2x2, .i32⟩ : BufTy).Contents (Elt F) → (⟨S2x2, .i32⟩ : BufTy).Contents (Elt F)),
    binary main_v3 main_v1 main_v4 (cmpi .eq : (⟨S2x2, .i32⟩ : BufTy).Contents (Elt F) → (⟨S2x2, .i32⟩ : BufTy).Contents (Elt F) → (⟨S2x2, .i1⟩ : BufTy).Contents (Elt F)),
    unary main_v4 main_v5 (uitofp .f32 : (⟨S2x2, .i1⟩ : BufTy).Contents (Elt F) → (⟨S2x2, .f32⟩ : BufTy).Contents (Elt F)),
    nullary main_cst_1 (constant S_ .f32 0x3F800000#32),
    unary main_cst_1 main_v6 (broadcastInDim S512x512 ![] bcast_S_S512x512 : (⟨S_, .f32⟩ : BufTy).Contents (Elt F) → (⟨S512x512, .f32⟩ : BufTy).Contents (Elt F)),
    TRef.unary (.of main_v5 : TRef sig ⟨S2x2, .f32⟩) (.of main_call0_v0 : TRef sig ⟨S2x1x2x1, .f32⟩) (broadcastInDim S2x1x2x1 ![0, 2] bcast_S2x2_S2x1x2x1_0_2),
    TRef.unary (.of main_v6 : TRef sig ⟨S512x512, .f32⟩) (.of main_call0_v1 : TRef sig ⟨S1x512x1x512, .f32⟩) (broadcastInDim S1x512x1x512 ![1, 3] bcast_S512x512_S1x512x1x512_1_3),
    TRef.unary (.of main_call0_v0 : TRef sig ⟨S2x1x2x1, .f32⟩) (.of main_call0_v2 : TRef sig ⟨S2x512x2x512, .f32⟩) (broadcastInDim S2x512x2x512 ![0, 1, 2, 3] bcast_S2x1x2x1_S2x512x2x512_0_1_2_3),
    TRef.unary (.of main_call0_v1 : TRef sig ⟨S1x512x1x512, .f32⟩) (.of main_call0_v3 : TRef sig ⟨S2x512x2x512, .f32⟩) (broadcastInDim S2x512x2x512 ![0, 1, 2, 3] bcast_S1x512x1x512_S2x512x2x512_0_1_2_3),
    TRef.binary (.of main_call0_v2 : TRef sig ⟨S2x512x2x512, .f32⟩) (.of main_call0_v3 : TRef sig ⟨S2x512x2x512, .f32⟩) (.of main_call0_v4 : TRef sig ⟨S2x512x2x512, .f32⟩) mulf,
    TRef.reshape (.of main_call0_v4 : TRef sig ⟨S2x512x2x512, .f32⟩) (.of main_v7 : TRef sig ⟨S1024x1024, .f32⟩) rfl shapeCasts_S2x512x2x512_S1024x1024,
    nullary main_v8 (iotaInDim S4x4 32 0),
    nullary main_v9 (iotaInDim S4x4 32 1),
    nullary main_c_2 (constantI S_ 32 0#32),
    unary main_c_2 main_v10 (broadcastInDim S4x4 ![] bcast_S_S4x4 : (⟨S_, .i32⟩ : BufTy).Contents (Elt F) → (⟨S4x4, .i32⟩ : BufTy).Contents (Elt F)),
    binary main_v8 main_v10 main_v11 (addi : (⟨S4x4, .i32⟩ : BufTy).Contents (Elt F) → (⟨S4x4, .i32⟩ : BufTy).Contents (Elt F) → (⟨S4x4, .i32⟩ : BufTy).Contents (Elt F)),
    binary main_v11 main_v9 main_v12 (cmpi .eq : (⟨S4x4, .i32⟩ : BufTy).Contents (Elt F) → (⟨S4x4, .i32⟩ : BufTy).Contents (Elt F) → (⟨S4x4, .i1⟩ : BufTy).Contents (Elt F)),
    unary main_v12 main_v13 (uitofp .f32 : (⟨S4x4, .i1⟩ : BufTy).Contents (Elt F) → (⟨S4x4, .f32⟩ : BufTy).Contents (Elt F)),
    nullary main_cst_3 (constant S_ .f32 0x3F800000#32),
    unary main_cst_3 main_v14 (broadcastInDim S256x256 ![] bcast_S_S256x256 : (⟨S_, .f32⟩ : BufTy).Contents (Elt F) → (⟨S256x256, .f32⟩ : BufTy).Contents (Elt F)),
    TRef.unary (.of main_v13 : TRef sig ⟨S4x4, .f32⟩) (.of main_call1_v0 : TRef sig ⟨S4x1x4x1, .f32⟩) (broadcastInDim S4x1x4x1 ![0, 2] bcast_S4x4_S4x1x4x1_0_2),
    TRef.unary (.of main_v14 : TRef sig ⟨S256x256, .f32⟩) (.of main_call1_v1 : TRef sig ⟨S1x256x1x256, .f32⟩) (broadcastInDim S1x256x1x256 ![1, 3] bcast_S256x256_S1x256x1x256_1_3),
    TRef.unary (.of main_call1_v0 : TRef sig ⟨S4x1x4x1, .f32⟩) (.of main_call1_v2 : TRef sig ⟨S4x256x4x256, .f32⟩) (broadcastInDim S4x256x4x256 ![0, 1, 2, 3] bcast_S4x1x4x1_S4x256x4x256_0_1_2_3),
    TRef.unary (.of main_call1_v1 : TRef sig ⟨S1x256x1x256, .f32⟩) (.of main_call1_v3 : TRef sig ⟨S4x256x4x256, .f32⟩) (broadcastInDim S4x256x4x256 ![0, 1, 2, 3] bcast_S1x256x1x256_S4x256x4x256_0_1_2_3),
    TRef.binary (.of main_call1_v2 : TRef sig ⟨S4x256x4x256, .f32⟩) (.of main_call1_v3 : TRef sig ⟨S4x256x4x256, .f32⟩) (.of main_call1_v4 : TRef sig ⟨S4x256x4x256, .f32⟩) mulf,
    TRef.reshape (.of main_call1_v4 : TRef sig ⟨S4x256x4x256, .f32⟩) (.of main_v15 : TRef sig ⟨S1024x1024, .f32⟩) rfl shapeCasts_S4x256x4x256_S1024x1024,
    unary main_cst main_v16 (broadcastInDim S1x2 ![1] bcast_S2_S1x2_1 : (⟨S2, .f32⟩ : BufTy).Contents (Elt F) → (⟨S1x2, .f32⟩ : BufTy).Contents (Elt F)),
    unary main_v16 main_v17 (broadcastInDim S65536x2 ![0, 1] bcast_S1x2_S65536x2_0_1 : (⟨S1x2, .f32⟩ : BufTy).Contents (Elt F) → (⟨S65536x2, .f32⟩ : BufTy).Contents (Elt F)),
    binary main_arg0 main_v17 main_v18 (subf : (⟨S65536x2, .f32⟩ : BufTy).Contents (Elt F) → (⟨S65536x2, .f32⟩ : BufTy).Contents (Elt F) → (⟨S65536x2, .f32⟩ : BufTy).Contents (Elt F)),
    nullary main_cst_4 (constant S_ .f32 0x40000000#32),
    unary main_cst_4 main_v19 (broadcastInDim S65536x2 ![] bcast_S_S65536x2 : (⟨S_, .f32⟩ : BufTy).Contents (Elt F) → (⟨S65536x2, .f32⟩ : BufTy).Contents (Elt F)),
    binary main_v19 main_v18 main_v20 (mulf : (⟨S65536x2, .f32⟩ : BufTy).Contents (Elt F) → (⟨S65536x2, .f32⟩ : BufTy).Contents (Elt F) → (⟨S65536x2, .f32⟩ : BufTy).Contents (Elt F)),
    binary main_cst_0 main_cst main_v21 (subf : (⟨S2, .f32⟩ : BufTy).Contents (Elt F) → (⟨S2, .f32⟩ : BufTy).Contents (Elt F) → (⟨S2, .f32⟩ : BufTy).Contents (Elt F)),
    unary main_v21 main_v22 (broadcastInDim S1x2 ![1] bcast_S2_S1x2_1 : (⟨S2, .f32⟩ : BufTy).Contents (Elt F) → (⟨S1x2, .f32⟩ : BufTy).Contents (Elt F)),
    unary main_v22 main_v23 (broadcastInDim S65536x2 ![0, 1] bcast_S1x2_S65536x2_0_1 : (⟨S1x2, .f32⟩ : BufTy).Contents (Elt F) → (⟨S65536x2, .f32⟩ : BufTy).Contents (Elt F)),
    binary main_v20 main_v23 main_v24 (Host.divf : (⟨S65536x2, .f32⟩ : BufTy).Contents (Elt F) → (⟨S65536x2, .f32⟩ : BufTy).Contents (Elt F) → (⟨S65536x2, .f32⟩ : BufTy).Contents (Elt F)),
    nullary main_cst_5 (constant S_ .f32 0x3F800000#32),
    unary main_cst_5 main_v25 (broadcastInDim S65536x2 ![] bcast_S_S65536x2 : (⟨S_, .f32⟩ : BufTy).Contents (Elt F) → (⟨S65536x2, .f32⟩ : BufTy).Contents (Elt F)),
    binary main_v24 main_v25 main_v26 (subf : (⟨S65536x2, .f32⟩ : BufTy).Contents (Elt F) → (⟨S65536x2, .f32⟩ : BufTy).Contents (Elt F) → (⟨S65536x2, .f32⟩ : BufTy).Contents (Elt F)),
    binary main_v26 main_arg1 main_v27 ((fun l r => Host.dotGeneral dot_S65536x2_S2x1024_S65536x1024_1_0_0_1_n_n none l r) : (⟨S65536x2, .f32⟩ : BufTy).Contents (Elt F) → (⟨S2x1024, .f32⟩ : BufTy).Contents (Elt F) → (⟨S65536x1024, .f32⟩ : BufTy).Contents (Elt F)),
    unary main_arg2 main_v28 (broadcastInDim S65536x1024 ![0, 1] bcast_S1x1024_S65536x1024_0_1 : (⟨S1x1024, .f32⟩ : BufTy).Contents (Elt F) → (⟨S65536x1024, .f32⟩ : BufTy).Contents (Elt F)),
    binary main_v27 main_v28 main_v29 (addf : (⟨S65536x1024, .f32⟩ : BufTy).Contents (Elt F) → (⟨S65536x1024, .f32⟩ : BufTy).Contents (Elt F) → (⟨S65536x1024, .f32⟩ : BufTy).Contents (Elt F)),
    unary main_v29 main_v30 (Host.tanh : (⟨S65536x1024, .f32⟩ : BufTy).Contents (Elt F) → (⟨S65536x1024, .f32⟩ : BufTy).Contents (Elt F)),
    binary main_v30 main_arg3 main_v31 ((fun l r => Host.dotGeneral dot_S65536x1024_S1024x1024_S65536x1024_1_0_0_1_n_n none l r) : (⟨S65536x1024, .f32⟩ : BufTy).Contents (Elt F) → (⟨S1024x1024, .f32⟩ : BufTy).Contents (Elt F) → (⟨S65536x1024, .f32⟩ : BufTy).Contents (Elt F)),
    unary main_arg4 main_v32 (broadcastInDim S65536x1024 ![0, 1] bcast_S1x1024_S65536x1024_0_1 : (⟨S1x1024, .f32⟩ : BufTy).Contents (Elt F) → (⟨S65536x1024, .f32⟩ : BufTy).Contents (Elt F)),
    binary main_v31 main_v32 main_v33 (addf : (⟨S65536x1024, .f32⟩ : BufTy).Contents (Elt F) → (⟨S65536x1024, .f32⟩ : BufTy).Contents (Elt F) → (⟨S65536x1024, .f32⟩ : BufTy).Contents (Elt F)),
    unary main_v33 main_v34 (Host.tanh : (⟨S65536x1024, .f32⟩ : BufTy).Contents (Elt F) → (⟨S65536x1024, .f32⟩ : BufTy).Contents (Elt F)),
    binary main_arg5 main_v7 main_v35 (mulf : (⟨S1024x1024, .f32⟩ : BufTy).Contents (Elt F) → (⟨S1024x1024, .f32⟩ : BufTy).Contents (Elt F) → (⟨S1024x1024, .f32⟩ : BufTy).Contents (Elt F)),
    binary main_v34 main_v35 main_v36 ((fun l r => Host.dotGeneral dot_S65536x1024_S1024x1024_S65536x1024_1_0_0_1_n_n none l r) : (⟨S65536x1024, .f32⟩ : BufTy).Contents (Elt F) → (⟨S1024x1024, .f32⟩ : BufTy).Contents (Elt F) → (⟨S65536x1024, .f32⟩ : BufTy).Contents (Elt F)),
    unary main_arg6 main_v37 (broadcastInDim S65536x1024 ![0, 1] bcast_S1x1024_S65536x1024_0_1 : (⟨S1x1024, .f32⟩ : BufTy).Contents (Elt F) → (⟨S65536x1024, .f32⟩ : BufTy).Contents (Elt F)),
    binary main_v36 main_v37 main_v38 (addf : (⟨S65536x1024, .f32⟩ : BufTy).Contents (Elt F) → (⟨S65536x1024, .f32⟩ : BufTy).Contents (Elt F) → (⟨S65536x1024, .f32⟩ : BufTy).Contents (Elt F)),
    unary main_v38 main_v39 (Host.tanh : (⟨S65536x1024, .f32⟩ : BufTy).Contents (Elt F) → (⟨S65536x1024, .f32⟩ : BufTy).Contents (Elt F)),
    binary main_arg7 main_v15 main_v40 (mulf : (⟨S1024x1024, .f32⟩ : BufTy).Contents (Elt F) → (⟨S1024x1024, .f32⟩ : BufTy).Contents (Elt F) → (⟨S1024x1024, .f32⟩ : BufTy).Contents (Elt F)),
    binary main_v39 main_v40 main_v41 ((fun l r => Host.dotGeneral dot_S65536x1024_S1024x1024_S65536x1024_1_0_0_1_n_n none l r) : (⟨S65536x1024, .f32⟩ : BufTy).Contents (Elt F) → (⟨S1024x1024, .f32⟩ : BufTy).Contents (Elt F) → (⟨S65536x1024, .f32⟩ : BufTy).Contents (Elt F)),
    unary main_arg8 main_v42 (broadcastInDim S65536x1024 ![0, 1] bcast_S1x1024_S65536x1024_0_1 : (⟨S1x1024, .f32⟩ : BufTy).Contents (Elt F) → (⟨S65536x1024, .f32⟩ : BufTy).Contents (Elt F)),
    binary main_v41 main_v42 main_v43 (addf : (⟨S65536x1024, .f32⟩ : BufTy).Contents (Elt F) → (⟨S65536x1024, .f32⟩ : BufTy).Contents (Elt F) → (⟨S65536x1024, .f32⟩ : BufTy).Contents (Elt F)),
    unary main_v43 main_v44 (Host.tanh : (⟨S65536x1024, .f32⟩ : BufTy).Contents (Elt F) → (⟨S65536x1024, .f32⟩ : BufTy).Contents (Elt F)),
    binary main_v44 main_arg9 main_v45 ((fun l r => Host.dotGeneral dot_S65536x1024_S1024x1_S65536x1_1_0_0_1_n_n none l r) : (⟨S65536x1024, .f32⟩ : BufTy).Contents (Elt F) → (⟨S1024x1, .f32⟩ : BufTy).Contents (Elt F) → (⟨S65536x1, .f32⟩ : BufTy).Contents (Elt F)),
    unary main_arg10 main_v46 (broadcastInDim S65536x1 ![0, 1] bcast_S1x1_S65536x1_0_1 : (⟨S1x1, .f32⟩ : BufTy).Contents (Elt F) → (⟨S65536x1, .f32⟩ : BufTy).Contents (Elt F)),
    binary main_v45 main_v46 main_v47 (addf : (⟨S65536x1, .f32⟩ : BufTy).Contents (Elt F) → (⟨S65536x1, .f32⟩ : BufTy).Contents (Elt F) → (⟨S65536x1, .f32⟩ : BufTy).Contents (Elt F)) ]

set_option maxRecDepth 2048 in
/-- The program is that list run in sequence: the two called functions are their six operations each. -/
theorem main_eq (c : Dev nD) : main (F := F) c = seq ops := by
  simp only [main, fn_kron.body, fn_kron_0.body, seq, bind_assoc, pure_bind]

/-- No array and no counter of the program is scoped to a region. -/
theorem scopedRefs_eq : (Finset.univ.filter fun b : Ref sig .tc => b.isScoped) = ∅ := by decide
theorem scopedSems_eq : (Finset.univ.filter fun sm : SemLoc sig => sm.isScoped .tc) = ∅ := by decide

/-- Every operation touches arrays of the program only. -/
theorem ops_sub : (ops : List (HloOp τ sig (Elt F))).Forall fun op => op.bufs ⊆ tcRefs τ sig :=
  ⟨nullary_bufs_sub .., nullary_bufs_sub .., nullary_bufs_sub .., nullary_bufs_sub .., nullary_bufs_sub .., unary_bufs_sub ..,
    binary_bufs_sub .., binary_bufs_sub .., unary_bufs_sub .., nullary_bufs_sub .., unary_bufs_sub .., unary_bufs_sub ..,
    unary_bufs_sub .., unary_bufs_sub .., unary_bufs_sub .., binary_bufs_sub .., reshape_bufs_sub .., nullary_bufs_sub ..,
    nullary_bufs_sub .., nullary_bufs_sub .., unary_bufs_sub .., binary_bufs_sub .., binary_bufs_sub .., unary_bufs_sub ..,
    nullary_bufs_sub .., unary_bufs_sub .., unary_bufs_sub .., unary_bufs_sub .., unary_bufs_sub .., unary_bufs_sub ..,
    binary_bufs_sub .., reshape_bufs_sub .., unary_bufs_sub .., unary_bufs_sub .., binary_bufs_sub .., nullary_bufs_sub ..,
    unary_bufs_sub .., binary_bufs_sub .., binary_bufs_sub .., unary_bufs_sub .., unary_bufs_sub .., binary_bufs_sub ..,
    nullary_bufs_sub .., unary_bufs_sub .., binary_bufs_sub .., binary_bufs_sub .., unary_bufs_sub .., binary_bufs_sub ..,
    unary_bufs_sub .., binary_bufs_sub .., unary_bufs_sub .., binary_bufs_sub .., unary_bufs_sub .., binary_bufs_sub ..,
    binary_bufs_sub .., unary_bufs_sub .., binary_bufs_sub .., unary_bufs_sub .., binary_bufs_sub .., binary_bufs_sub ..,
    unary_bufs_sub .., binary_bufs_sub .., unary_bufs_sub .., binary_bufs_sub .., unary_bufs_sub .., binary_bufs_sub ..⟩

/-- Every execution of the reference terminates, and each array ends at the operations' result over the arrays as
    launched. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.LibDenseHost.lean ====
/-
  The host's matrix product, read at an index.

  A `dot_general` of a `[K, N]` left operand with an `[N, Q]` right operand, contracting the left's second axis with
  the right's first: over the extended reals entry `(k, q)` of the result is the plain sum `Σ n, l (k, n) * r (n, q)`,
  whatever the schedule — the same sum a matrix unit accumulates into zero, so a product computed block of rows by
  block of rows and a product computed whole agree entry by entry.
-/
import proofs.«103935_j69904887710540_1_alg».proof.Proof.LibDenseBlock

noncomputable section

namespace Idealize.ShloMosaic.DenseBlock

open Idealize.ShloMosaic Idealize.ShloMosaic.ValueIdx

variable {K N Q : Nat} (wf : DotDims.WF ⟨2, ![K, N]⟩ ⟨2, ![N, Q]⟩ ⟨2, ![K, Q]⟩ [1] [0] [0] [1] [] [])

/-- Entry `(k, q)` of the host's product is `Σ n, l (k, n) * r (n, q)`. -/
theorem dotGeneral_apply_ix2 {φ₁ φ₂ : FTy} (sched : HostSchedule) (l : FVec Ideal ⟨2, ![K, N]⟩ φ₁)
    (r : FVec Ideal ⟨2, ![N, Q]⟩ φ₂) (k : Fin K) (q : Fin Q) :
    FloatOps.dotGeneral (mmDims K N Q wf) none sched l r (ix2 k q) = ∑ n : Fin N, l (ix2 k n) * r (ix2 n q) := by
  rw [Ideal.dotGeneral_apply, ← Equiv.sum_comp (contrEquiv1 (mmDims K N Q wf) N rfl rfl).symm]
  refine Finset.sum_congr rfl fun n _ => ?_
  have hn := contrEquiv1_symm_val (mmDims K N Q wf) N rfl rfl n
  have el : (mmDims K N Q wf).lhsIdx (ix2 k q) ((contrEquiv1 (mmDims K N Q wf) N rfl rfl).symm n) = ix2 k n :=
    funext fun a => Fin.ext (by
      match a with
      | ⟨0, _⟩ => exact lhs_row wf _ _
      | ⟨1, _⟩ => exact (lhs_col wf _ _).trans hn)
  have er : (mmDims K N Q wf).rhsIdx (ix2 k q) ((contrEquiv1 (mmDims K N Q wf) N rfl rfl).symm n) = ix2 n q :=
    funext fun a => Fin.ext (by
      match a with
      | ⟨0, _⟩ => exact (rhs_row wf _ _).trans hn
      | ⟨1, _⟩ => exact rhs_col wf _ _)
  rw [el, er]

end Idealize.ShloMosaic.DenseBlock

end
-- ==== Proof.LibHostRowLayer.lean ====
/-
  A dense layer on the host whose bias is one row, read at an index.

  `x @ W + b` for a batch x of E rows of N numbers, a weight matrix W laid out [N, Q] and a bias b kept as one row
  [1, Q] lowers to a `dot_general` contracting x's second axis with W's first, and b broadcast along the E rows.  Over
  the extended reals entry (e, q) of the result is  Σ n, x (e, n) * W (n, q) + b (0, q).
-/
import proofs.«103935_j69904887710540_1_alg».proof.Proof.LibDenseHost
import Idealize.ShloMosaic.Lib.Pipeline.Value

set_option maxRecDepth 16384

noncomputable section

open scoped BigOperators

namespace Idealize.ShloMosaic.HostRowLayer

open Idealize.ShloMosaic Idealize.ShloMosaic.ValueIdx Idealize.ShloMosaic.DenseBlock

/-- A [1, Q] row broadcast along E rows reads, at (e, q), the row at q. -/
theorem biasRow_apply {E Q : ℕ} {α : Type} (b : (⟨2, ![1, Q]⟩ : Shape).Idx → α)
    (h : (⟨2, ![1, Q]⟩ : Shape).BroadcastsInDim ⟨2, ![E, Q]⟩ ![0, 1]) (e : Fin E) (q : Fin Q) :
    broadcastInDim ⟨2, ![E, Q]⟩ ![0, 1] h b (ix2 e q) = b (ix2 (0 : Fin 1) q) := by
  have hq := q.isLt
  exact broadcastInDim_apply ![0, 1] h _ (ix2 e q) (ix2 (0 : Fin 1) q) (fun a => by
    match a with
    | ⟨0, _⟩ => show (0 : ℕ) = if (1 : ℕ) = 1 then 0 else e.val; simp
    | ⟨1, _⟩ => show q.val = if Q = 1 then 0 else q.val; split <;> omega)

/-- One layer on the host: a product and a bias row laid along the rows, at (e, q). -/
theorem layer_apply {E N Q : ℕ} (wf : DotDims.WF ⟨2, ![E, N]⟩ ⟨2, ![N, Q]⟩ ⟨2, ![E, Q]⟩ [1] [0] [0] [1] [] [])
    (X : FVec Ideal ⟨2, ![E, N]⟩ .f32) (W : FVec Ideal ⟨2, ![N, Q]⟩ .f32) (b : FVec Ideal ⟨2, ![1, Q]⟩ .f32)
    (h : (⟨2, ![1, Q]⟩ : Shape).BroadcastsInDim ⟨2, ![E, Q]⟩ ![0, 1]) (e : Fin E) (q : Fin Q) :
    addf (Host.dotGeneral (mmDims E N Q wf) none X W) (broadcastInDim ⟨2, ![E, Q]⟩ ![0, 1] h b) (ix2 e q)
      = (∑ n : Fin N, X (ix2 e n) * W (ix2 n q)) + b (ix2 (0 : Fin 1) q) := by
  show FloatOps.dotGeneral (mmDims E N Q wf) none _ X W (ix2 e q)
      + broadcastInDim ⟨2, ![E, Q]⟩ ![0, 1] h b (ix2 e q) = _
  rw [dotGeneral_apply_ix2, biasRow_apply]

end Idealize.ShloMosaic.HostRowLayer

end
-- ==== Proof.RefValue.lean ====
/-
  What the reference computes, and that it is the network on every row.

  The reference rescales the whole input, masks the third and fourth layers' weights, and then applies the five layers
  to all 65536 rows at once: each layer a product of the [65536, N] activations with the [N, Q] weights plus the bias
  row laid along the rows, the first four followed by tanh.  Entry (r, q) of such a layer is
  Σ n, h (r, n) · W (n, q) + b (0, q), which depends on row r of h only; so entry (r, 0) of the result is the network on
  row r of the rescaled input.  The rescaling and the two masks are the very operations the kernel's program applies
  before its launch, and are carried here as the same terms, never opened.
-/
import proofs.«103935_j69904887710540_1_alg».proof.Proof.RefRun
import proofs.«103935_j69904887710540_1_alg».proof.Proof.KernelHost
import proofs.«103935_j69904887710540_1_alg».proof.Proof.LibHostRowLayer
import proofs.«103935_j69904887710540_1_alg».proof.Proof.MlpRow

noncomputable section

open scoped BigOperators

namespace Cert.ReferenceIdeal.RefValue

open Cert.ReferenceIdeal Cert.ReferenceIdeal.Gen Cert.ReferenceIdeal.RefRun
open Idealize.ShloMosaic Idealize.ShloMosaic.TcCoe Idealize.SL.Sem Idealize.ShloMosaic.StableHlo
open Idealize.ShloMosaic.ValueIdx Idealize.ShloMosaic.DenseBlock Idealize.ShloMosaic.HostRowLayer Cert.Mlp

section AnyInstance
variable {F : FTy → Type} [FloatOps F]

/-- The reference's result as one term of its arguments: the rescaled input through the five layers, the third and
    fourth with masked weights. -/
def refResult (x : FVec F S65536x2 .f32) (w0 : FVec F S2x1024 .f32) (b0 : FVec F S1x1024 .f32)
    (w1 : FVec F S1024x1024 .f32) (b1 : FVec F S1x1024 .f32) (w2 : FVec F S1024x1024 .f32) (b2 : FVec F S1x1024 .f32)
    (w3 : FVec F S1024x1024 .f32) (b3 : FVec F S1x1024 .f32) (wl : FVec F S1024x1 .f32) (bl : FVec F S1x1 .f32) : FVec F S65536x1 .f32 :=
  addf
    (Host.dotGeneral dot_S65536x1024_S1024x1_S65536x1_1_0_0_1_n_n none
      (Host.tanh (addf
        (Host.dotGeneral dot_S65536x1024_S1024x1024_S65536x1024_1_0_0_1_n_n none
          (Host.tanh (addf
            (Host.dotGeneral dot_S65536x1024_S1024x1024_S65536x1024_1_0_0_1_n_n none
              (Host.tanh (addf
                (Host.dotGeneral dot_S65536x1024_S1024x1024_S65536x1024_1_0_0_1_n_n none
                  (Host.tanh (addf
                    (Host.dotGeneral dot_S65536x2_S2x1024_S65536x1024_1_0_0_1_n_n none (Cert.KernelIdeal.HostPrefix.normed x) w0)
                    (broadcastInDim S65536x1024 ![0, 1] bcast_S1x1024_S65536x1024_0_1 b0)))
                  w1)
                (broadcastInDim S65536x1024 ![0, 1] bcast_S1x1024_S65536x1024_0_1 b1)))
              (mulf w2 (Cert.KernelIdeal.HostPrefix.mask2 (F := F))))
            (broadcastInDim S65536x1024 ![0, 1] bcast_S1x1024_S65536x1024_0_1 b2)))
          (mulf w3 (Cert.KernelIdeal.HostPrefix.mask3 (F := F))))
        (broadcastInDim S65536x1024 ![0, 1] bcast_S1x1024_S65536x1024_0_1 b3)))
      wl)
    (broadcastInDim S65536x1 ![0, 1] bcast_S1x1_S65536x1_0_1 bl)

set_option maxRecDepth 8192
set_option maxHeartbeats 4000000

/-- The result array after the 66 operations is that term of the arguments' contents. -/
theorem result_term (V : Valuation τ sig (Elt F)) :
    after ops V (main_v47 : DevRef τ sig)
      = refResult (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) := by
  after_results_simp
  rfl

/-- No operation writes an argument. -/
theorem kept_arg0 (V : Valuation τ sig (Elt F)) : after ops V (main_arg0 : DevRef τ sig) = V (main_arg0 : DevRef τ sig) := by
  after_results_simp
theorem kept_arg1 (V : Valuation τ sig (Elt F)) : after ops V (main_arg1 : DevRef τ sig) = V (main_arg1 : DevRef τ sig) := by
  after_results_simp
theorem kept_arg2 (V : Valuation τ sig (Elt F)) : after ops V (main_arg2 : DevRef τ sig) = V (main_arg2 : DevRef τ sig) := by
  after_results_simp
theorem kept_arg3 (V : Valuation τ sig (Elt F)) : after ops V (main_arg3 : DevRef τ sig) = V (main_arg3 : DevRef τ sig) := by
  after_results_simp
theorem kept_arg4 (V : Valuation τ sig (Elt F)) : after ops V (main_arg4 : DevRef τ sig) = V (main_arg4 : DevRef τ sig) := by
  after_results_simp
theorem kept_arg5 (V : Valuation τ sig (Elt F)) : after ops V (main_arg5 : DevRef τ sig) = V (main_arg5 : DevRef τ sig) := by
  after_results_simp
theorem kept_arg6 (V : Valuation τ sig (Elt F)) : after ops V (main_arg6 : DevRef τ sig) = V (main_arg6 : DevRef τ sig) := by
  after_results_simp
theorem kept_arg7 (V : Valuation τ sig (Elt F)) : after ops V (main_arg7 : DevRef τ sig) = V (main_arg7 : DevRef τ sig) := by
  after_results_simp
theorem kept_arg8 (V : Valuation τ sig (Elt F)) : after ops V (main_arg8 : DevRef τ sig) = V (main_arg8 : DevRef τ sig) := by
  after_results_simp
theorem kept_arg9 (V : Valuation τ sig (Elt F)) : after ops V (main_arg9 : DevRef τ sig) = V (main_arg9 : DevRef τ sig) := by
  after_results_simp
theorem kept_arg10 (V : Valuation τ sig (Elt F)) : after ops V (main_arg10 : DevRef τ sig) = V (main_arg10 : DevRef τ sig) := by
  after_results_simp

/-- Every execution of the reference terminates with the result at `refResult` of the arguments and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v47) = refResult (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨(h c main_v47).trans (result_term _),
      (h c main_arg0).trans (kept_arg0 _),
      (h c main_arg1).trans (kept_arg1 _),
      (h c main_arg2).trans (kept_arg2 _),
      (h c main_arg3).trans (kept_arg3 _),
      (h c main_arg4).trans (kept_arg4 _),
      (h c main_arg5).trans (kept_arg5 _),
      (h c main_arg6).trans (kept_arg6 _),
      (h c main_arg7).trans (kept_arg7 _),
      (h c main_arg8).trans (kept_arg8 _),
      (h c main_arg9).trans (kept_arg9 _),
      (h c main_arg10).trans (kept_arg10 _)⟩)
    (run_main m ρ)

end AnyInstance

section Layers
variable {E N Q : ℕ} (wf : DotDims.WF ⟨2, ![E, N]⟩ ⟨2, ![N, Q]⟩ ⟨2, ![E, Q]⟩ [1] [0] [0] [1] [] [])

/-- Entry (e, q) of a host product plus a bias row is the affine layer on row e of the operand. -/
theorem affine_row (X : FVec Ideal ⟨2, ![E, N]⟩ .f32) (W : FVec Ideal ⟨2, ![N, Q]⟩ .f32) (b : FVec Ideal ⟨2, ![1, Q]⟩ .f32)
    (h : (⟨2, ![1, Q]⟩ : Shape).BroadcastsInDim ⟨2, ![E, Q]⟩ ![0, 1]) (e : Fin E) (q : Fin Q) :
    addf (Host.dotGeneral (mmDims E N Q wf) none X W) (broadcastInDim ⟨2, ![E, Q]⟩ ![0, 1] h b) (ix2 e q)
      = affineRow (mat W) (biasRow b) (rowOf X e) q :=
  layer_apply wf X W b h e q

/-- Row e of a hidden layer of the reference is the hidden layer on row e of its operand. -/
theorem hidden_row (X : FVec Ideal ⟨2, ![E, N]⟩ .f32) (W : FVec Ideal ⟨2, ![N, Q]⟩ .f32) (b : FVec Ideal ⟨2, ![1, Q]⟩ .f32)
    (h : (⟨2, ![1, Q]⟩ : Shape).BroadcastsInDim ⟨2, ![E, Q]⟩ ![0, 1]) (e : Fin E) :
    rowOf (Host.tanh (addf (Host.dotGeneral (mmDims E N Q wf) none X W) (broadcastInDim ⟨2, ![E, Q]⟩ ![0, 1] h b))
        : FVec Ideal ⟨2, ![E, Q]⟩ .f32) e
      = tanhRow (mat W) (biasRow b) (rowOf X e) :=
  funext fun q => congrArg Ideal.tanh (layer_apply wf X W b h e q)

end Layers

/-- The dimension numbers of the three products are those of [E, N] · [N, Q]. -/
theorem dims_first : dot_S65536x2_S2x1024_S65536x1024_1_0_0_1_n_n
    = mmDims 65536 2 1024 Facts₀.dot_S65536x2_S2x1024_S65536x1024_1_0_0_1_n_n_wf := rfl
theorem dims_mid : dot_S65536x1024_S1024x1024_S65536x1024_1_0_0_1_n_n
    = mmDims 65536 1024 1024 Facts₀.dot_S65536x1024_S1024x1024_S65536x1024_1_0_0_1_n_n_wf := rfl
theorem dims_last : dot_S65536x1024_S1024x1_S65536x1_1_0_0_1_n_n
    = mmDims 65536 1024 1 Facts₀.dot_S65536x1024_S1024x1_S65536x1_1_0_0_1_n_n_wf := rfl

/-- Entry (r, 0) of the reference's result is the network on row r of the rescaled input. -/
theorem result_row (x : FVec Ideal S65536x2 .f32) (w0 : FVec Ideal S2x1024 .f32) (b0 : FVec Ideal S1x1024 .f32)
    (w1 : FVec Ideal S1024x1024 .f32) (b1 : FVec Ideal S1x1024 .f32) (w2 : FVec Ideal S1024x1024 .f32) (b2 : FVec Ideal S1x1024 .f32)
    (w3 : FVec Ideal S1024x1024 .f32) (b3 : FVec Ideal S1x1024 .f32) (wl : FVec Ideal S1024x1 .f32) (bl : FVec Ideal S1x1 .f32)
    (r : Fin 65536) (z : Fin 1) :
    refResult (F := Ideal) x w0 b0 w1 b1 w2 b2 w3 b3 wl bl (ix2 r z)
      = mlpRow (mat w0) (biasRow b0) (mat w1) (biasRow b1) (mat (mulf w2 (Cert.KernelIdeal.HostPrefix.mask2 (F := Ideal)))) (biasRow b2)
          (mat (mulf w3 (Cert.KernelIdeal.HostPrefix.mask3 (F := Ideal)))) (biasRow b3) (mat wl) (biasRow bl) (rowOf (Cert.KernelIdeal.HostPrefix.normed x) r) := by
  obtain rfl : z = 0 := Subsingleton.elim _ _
  unfold refResult
  simp only [dims_first, dims_mid, dims_last]
  rw [affine_row, hidden_row, hidden_row, hidden_row, hidden_row]
  rfl

/-- The reference's result is the network on every row of the rescaled input, with the masked weights. -/
theorem result_eq (x : FVec Ideal S65536x2 .f32) (w0 : FVec Ideal S2x1024 .f32) (b0 : FVec Ideal S1x1024 .f32)
    (w1 : FVec Ideal S1024x1024 .f32) (b1 : FVec Ideal S1x1024 .f32) (w2 : FVec Ideal S1024x1024 .f32) (b2 : FVec Ideal S1x1024 .f32)
    (w3 : FVec Ideal S1024x1024 .f32) (b3 : FVec Ideal S1x1024 .f32) (wl : FVec Ideal S1024x1 .f32) (bl : FVec Ideal S1x1 .f32) :
    refResult (F := Ideal) x w0 b0 w1 b1 w2 b2 w3 b3 wl bl
      = mlpArray (Cert.KernelIdeal.HostPrefix.normed x) w0 b0 w1 b1 (mulf w2 (Cert.KernelIdeal.HostPrefix.mask2 (F := Ideal))) b2
          (mulf w3 (Cert.KernelIdeal.HostPrefix.mask3 (F := Ideal))) b3 wl bl := by
  funext i
  obtain ⟨r, z, rfl⟩ : ∃ (r : Fin 65536) (z : Fin 1), i = ix2 r z := ⟨i 0, i 1, eq_ix2 i⟩
  rw [result_row, mlpArray_apply]

end Cert.ReferenceIdeal.RefValue

end
-- ==== Proof.lean ====
/-
  A five-layer perceptron on 65536 rows of two numbers: the kernel against its reference, over the extended reals.

  Both programs rescale the input to [-1, 1] coordinate by coordinate, multiply the third and fourth layers' weights
  entry by entry with fixed block-diagonal masks of zeros and ones, and apply

      h1 = tanh (x · W0 + b0), h2 = tanh (h1 · W1 + b1), h3 = tanh (h2 · (W2 ∘ mask) + b2),
      h4 = tanh (h3 · (W3 ∘ mask') + b3), y = h4 · Wl + bl

  to every row.  The reference does so on all rows at once.  The kernel does so 2048 rows at a time on a grid of 32
  points, with the weights narrowed to the matrix unit's format and every product accumulated from zero.  Over the
  extended reals a narrowing is the identity, and an entry of a matrix product, accumulated from zero or not, is the
  plain finite sum Σ n, h (r, n) · W (n, q): it depends on row r of h only, so the result's row r is ONE function of
  the input's row r, whichever rows are processed beside it.  The kernel's 32 blocks are disjoint and cover the 65536
  rows, so both programs end with the same array, that function on every row; tanh is the same function in both.  No
  law used here needs the inputs finite: sums are only regrouped by rows, never reordered or distributed.

  No operation of the kernel is read differently over the extended reals than as written, so that conjunct is trivial;
  the three programs' runs (termination, no fault, arguments unchanged) are the kernel's generated frames and the
  reference's run read back.
-/
import proofs.«103935_j69904887710540_1_alg».proof.Defs
import proofs.«103935_j69904887710540_1_alg».proof.Proof.Gen.Kernel
import proofs.«103935_j69904887710540_1_alg».proof.Proof.Gen.Kernel.Frame
import proofs.«103935_j69904887710540_1_alg».proof.Proof.Gen.KernelIdeal
import proofs.«103935_j69904887710540_1_alg».proof.Proof.Gen.KernelIdeal.Frame
import proofs.«103935_j69904887710540_1_alg».proof.Proof.Gen.KernelIdeal.Value
import proofs.«103935_j69904887710540_1_alg».proof.Proof.Gen.ReferenceIdeal
import proofs.«103935_j69904887710540_1_alg».proof.Proof.Gen.Pre_finite_inputs
import proofs.«103935_j69904887710540_1_alg».proof.Proof.KernelRun
import proofs.«103935_j69904887710540_1_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- And the reference: its run, the result forgotten. -/
theorem frame_referenceIdeal : Cert.frame_ReferenceIdeal := fun m ρ _ =>
  (θ_run Cert.ReferenceIdeal.defs _ _).mono (fun _ h c => (h c).2) (Cert.ReferenceIdeal.RefValue.run (F := Ideal) m ρ)

/-- The kernel read over the extended reals is the kernel's own text: no operation was rewritten. -/
theorem preserves : Cert.preserves_Kernel_KernelIdeal := trivial

/-- From memories agreeing on the arguments both programs end with the network on every row of the rescaled input:
    the kernel block by block, the reference on all rows at once. -/
theorem algebraic : Cert.algebraic_KernelIdeal_ReferenceIdeal := by
  intro m ρ m' ρ' _ hagree
  refine ⟨_, Cert.KernelIdeal.KernelRun.run m ρ, ?_⟩
  refine (θ_run Cert.ReferenceIdeal.defs _ _).mono (fun _ h c => ⟨(h c).1.trans ?_, (h c).2⟩)
    (Cert.ReferenceIdeal.RefValue.run (F := Ideal) m' ρ')
  obtain ⟨a0, a1, a2, a3, a4, a5, a6, a7, a8, a9, a10⟩ := hagree c
  rw [a0, a1, a2, a3, a4, a5, a6, a7, a8, a9, a10]
  exact Cert.ReferenceIdeal.RefValue.result_eq _ _ _ _ _ _ _ _ _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
